-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) (main_arg1 : IVec S512x512 32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Kernel.lean ====
abbrev S512x512 : Shape := ⟨2, ![512, 512]⟩
abbrev S_ : Shape := ⟨0, ![]⟩
abbrev S1x512x512 : Shape := ⟨3, ![1, 512, 512]⟩
abbrev S2x512x512 : Shape := ⟨3, ![2, 512, 512]⟩
abbrev S2x512x1 : Shape := ⟨3, ![2, 512, 1]⟩
abbrev S1x16x512 : Shape := ⟨3, ![1, 16, 512]⟩
abbrev S1x16x1 : Shape := ⟨3, ![1, 16, 1]⟩
abbrev S16x512 : Shape := ⟨2, ![16, 512]⟩
abbrev S16x1x512 : Shape := ⟨3, ![16, 1, 512]⟩
abbrev S16x512x1 : Shape := ⟨3, ![16, 512, 1]⟩
abbrev S16x512x512 : Shape := ⟨3, ![16, 512, 512]⟩
abbrev S16 : Shape := ⟨1, ![16]⟩
abbrev S16x1 : Shape := ⟨2, ![16, 1]⟩

abbrev nBuf : Space → Nat
  | .hbm => 29
  | .vmem => 10
  | .smem => 0
  | _ => 0

abbrev bufTy : (tb : Table) → Fin (tcTables nBuf tb) → BufTy
  | .hbm, ⟨0, _⟩ => ⟨S512x512, .f32⟩
  | .hbm, ⟨1, _⟩ => ⟨S512x512, .i32⟩
  | .hbm, ⟨2, _⟩ => ⟨S_, .i32⟩
  | .hbm, ⟨3, _⟩ => ⟨S512x512, .i32⟩
  | .hbm, ⟨4, _⟩ => ⟨S512x512, .i1⟩
  | .hbm, ⟨5, _⟩ => ⟨S512x512, .f32⟩
  | .hbm, ⟨6, _⟩ => ⟨S_, .i32⟩
  | .hbm, ⟨7, _⟩ => ⟨S512x512, .i32⟩
  | .hbm, ⟨8, _⟩ => ⟨S512x512, .i1⟩
  | .hbm, ⟨9, _⟩ => ⟨S512x512, .f32⟩
  | .hbm, ⟨10, _⟩ => ⟨S512x512, .f32⟩
  | .hbm, ⟨11, _⟩ => ⟨S1x512x512, .f32⟩
  | .hbm, ⟨12, _⟩ => ⟨S1x512x512, .f32⟩
  | .hbm, ⟨13, _⟩ => ⟨S2x512x512, .f32⟩
  | .hbm, ⟨14, _⟩ => ⟨S512x512, .f32⟩
  | .hbm, ⟨15, _⟩ => ⟨S1x512x512, .f32⟩
  | .hbm, ⟨16, _⟩ => ⟨S1x512x512, .f32⟩
  | .hbm, ⟨17, _⟩ => ⟨S2x512x512, .f32⟩
  | .hbm, ⟨18, _⟩ => ⟨S512x512, .f32⟩
  | .hbm, ⟨19, _⟩ => ⟨S1x512x512, .f32⟩
  | .hbm, ⟨20, _⟩ => ⟨S1x512x512, .f32⟩
  | .hbm, ⟨21, _⟩ => ⟨S2x512x512, .f32⟩
  | .hbm, ⟨22, _⟩ => ⟨S2x512x1, .f32⟩
  | .hbm, ⟨23, _⟩ => ⟨S2x512x1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S1x16x512, .f32⟩
  | .local _ .vmem, ⟨1, _⟩ => ⟨S1x16x512, .f32⟩
  | .local _ .vmem, ⟨2, _⟩ => ⟨S1x16x512, .f32⟩
  | .local _ .vmem, ⟨3, _⟩ => ⟨S1x16x512, .f32⟩
  | .local _ .vmem, ⟨4, _⟩ => ⟨S1x16x512, .f32⟩
  | .local _ .vmem, ⟨5, _⟩ => ⟨S1x16x512, .f32⟩
  | .local _ .vmem, ⟨6, _⟩ => ⟨S1x16x1, .f32⟩
  | .local _ .vmem, ⟨7, _⟩ => ⟨S1x16x1, .f32⟩
  | .local _ .vmem, ⟨8, _⟩ => ⟨S1x16x1, .f32⟩
  | .local _ .vmem, ⟨9, _⟩ => ⟨S1x16x1, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18_0 : Ref sig .tc := ⟨.hbm, 22, rfl⟩
abbrev main_v18_1 : Ref sig .tc := ⟨.hbm, 23, rfl⟩
abbrev main_cst : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S512x512 : S_.BroadcastsInDim S512x512 (![] : Fin 0 → Fin S512x512.rank)
  transposes_S512x512_S512x512_1_0 : S512x512.Transposes [1, 0] S512x512
  bcast_S512x512_S1x512x512_1_2 : S512x512.BroadcastsInDim S1x512x512 (![1, 2] : Fin 2 → Fin S1x512x512.rank)
  concatenates_S1x512x512_S1x512x512_S2x512x512_d0 : Shape.Concatenates [S1x512x512, S1x512x512] S2x512x512 0
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  shapeCasts_S16x512_S16x1x512 : S16x512.ShapeCasts S16x1x512
  shapeCasts_S16x512_S16x512x1 : S16x512.ShapeCasts S16x512x1
  broadcasts_S16x1x512_S16x512x512 : S16x1x512.Broadcasts S16x512x512
  broadcasts_S16x512x1_S16x512x512 : S16x512x1.Broadcasts S16x512x512
  shapeCasts_S16x512x1_S16x512 : S16x512x1.ShapeCasts S16x512
  reduces_S16x512_S16 : S16x512.Reduces [1] S16
  shapeCasts_S16_S16x1 : S16.ShapeCasts S16x1
  natLt_1_32 : 1 < 32
  inb_S1x16x1_S1x16x1_0_0_0 : ∀ a, (![0, 0, 0] : Fin 3 → Nat) a + S1x16x1.size a ≤ S1x16x1.size a
  h_S1x16x1 : 0 < S1x16x1.numel
  shapeCasts_S1x16x1_S16x1 : S1x16x1.ShapeCasts S16x1
  shapeCasts_S16x1_S1x16x1 : S16x1.ShapeCasts S1x16x1
  reducesTo_S2x512x1_S_d0_1_2 : S2x512x1.ReducesTo [0, 1, 2] S_
  h_S_ : 0 < S_.numel
  dot_S16x512x512_S16x512x1_S16x512x1_2_1_1_2_0_0_wf : DotDims.WF S16x512x512 S16x512x1 S16x512x1 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x512.size a ≤ S2x512x512.size a
  hwx0_0 : ∀ i : grid0.Coords, EltTy.bits .f32 = 32 ∨ (Rect.block (s := S2x512x512) S1x16x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x512.size a ≤ S2x512x512.size a
  hwx0_1 : ∀ i : grid0.Coords, EltTy.bits .f32 = 32 ∨ (Rect.block (s := S2x512x512) S1x16x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x512.size a ≤ S2x512x512.size a
  hwx0_2 : ∀ i : grid0.Coords, EltTy.bits .f32 = 32 ∨ (Rect.block (s := S2x512x512) S1x16x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x1.size a ≤ S2x512x1.size a
  hwx0_3 : ∀ i : grid0.Coords, EltTy.bits .f32 = 32 ∨ (Rect.block (s := S2x512x1) S1x16x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x1.size a ≤ S2x512x1.size a
  hwx0_4 : ∀ i : grid0.Coords, EltTy.bits .f32 = 32 ∨ (Rect.block (s := S2x512x1) S1x16x1.size (cc0_transform_4 i) (hinb0_4 i)).WholeWords (EltTy.packing .f32)

variable [Facts₀]

def dot_S16x512x512_S16x512x1_S16x512x1_2_1_1_2_0_0 : DotDims S16x512x512 S16x512x1 S16x512x1 where
  lhsContracting := [2]
  rhsContracting := [1]
  lhsNonContracting := [1]
  rhsNonContracting := [2]
  lhsBatch := [0]
  rhsBatch := [0]
  wf := dot_S16x512x512_S16x512x1_S16x512x1_2_1_1_2_0_0_wf

abbrev win0_0 : Pipeline.Window sig grid0 :=
  Pipeline.Window.ofSpec (Memref.whole main_v9) S1x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1x16x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x16x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18_0) S1x16x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18_1) S1x16x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S512x512 : Shape := ⟨2, ![512, 512]⟩
abbrev S_ : Shape := ⟨0, ![]⟩
abbrev S512x1x512 : Shape := ⟨3, ![512, 1, 512]⟩
abbrev S512x512x1 : Shape := ⟨3, ![512, 512, 1]⟩
abbrev S512x512x512 : Shape := ⟨3, ![512, 512, 512]⟩
abbrev S512 : Shape := ⟨1, ![512]⟩

abbrev nBuf : Space → Nat
  | .hbm => 107
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .i32⟩
  | .hbm, ⟨2, _⟩ => ⟨S_, .i32⟩
  | .hbm, ⟨3, _⟩ => ⟨S512x512, .i32⟩
  | .hbm, ⟨4, _⟩ => ⟨S512x512, .i1⟩
  | .hbm, ⟨5, _⟩ => ⟨S512x512, .f32⟩
  | .hbm, ⟨6, _⟩ => ⟨S_, .i32⟩
  | .hbm, ⟨7, _⟩ => ⟨S512x512, .i32⟩
  | .hbm, ⟨8, _⟩ => ⟨S512x512, .i1⟩
  | .hbm, ⟨9, _⟩ => ⟨S512x512, .f32⟩
  | .hbm, ⟨10, _⟩ => ⟨S512x1x512, .f32⟩
  | .hbm, ⟨11, _⟩ => ⟨S_, .f32⟩
  | .hbm, ⟨12, _⟩ => ⟨S512x1x512, .f32⟩
  | .hbm, ⟨13, _⟩ => ⟨S512x1x512, .f32⟩
  | .hbm, ⟨14, _⟩ => ⟨S512x512x1, .f32⟩
  | .hbm, ⟨15, _⟩ => ⟨S512x512x512, .f32⟩
  | .hbm, ⟨16, _⟩ => ⟨S512x512x512, .f32⟩
  | .hbm, ⟨17, _⟩ => ⟨S512x512x512, .f32⟩
  | .hbm, ⟨18, _⟩ => ⟨S_, .f32⟩
  | .hbm, ⟨19, _⟩ => ⟨S512x512x512, .f32⟩
  | .hbm, ⟨20, _⟩ => ⟨S512x512x512, .f32⟩
  | .hbm, ⟨21, _⟩ => ⟨S512x512x1, .f32⟩
  | .hbm, ⟨22, _⟩ => ⟨S512x1x512, .f32⟩
  | .hbm, ⟨23, _⟩ => ⟨S512x512x512, .f32⟩
  | .hbm, ⟨24, _⟩ => ⟨S512x512x512, .f32⟩
  | .hbm, ⟨25, _⟩ => ⟨S512x512x512, .f32⟩
  | .hbm, ⟨26, _⟩ => ⟨S512x512x512, .f32⟩
  | .hbm, ⟨27, _⟩ => ⟨S_, .f32⟩
  | .hbm, ⟨28, _⟩ => ⟨S512, .f32⟩
  | .hbm, ⟨29, _⟩ => ⟨S_, .f32⟩
  | .hbm, ⟨30, _⟩ => ⟨S512, .f32⟩
  | .hbm, ⟨31, _⟩ => ⟨S_, .f32⟩
  | .hbm, ⟨32, _⟩ => ⟨S512, .f32⟩
  | .hbm, ⟨33, _⟩ => ⟨S512, .f32⟩
  | .hbm, ⟨34, _⟩ => ⟨S_, .f32⟩
  | .hbm, ⟨35, _⟩ => ⟨S512, .f32⟩
  | .hbm, ⟨36, _⟩ => ⟨S512, .i1⟩
  | .hbm, ⟨37, _⟩ => ⟨S_, .f32⟩
  | .hbm, ⟨38, _⟩ => ⟨S_, .f32⟩
  | .hbm, ⟨39, _⟩ => ⟨S512, .f32⟩
  | .hbm, ⟨40, _⟩ => ⟨S512, .f32⟩
  | .hbm, ⟨41, _⟩ => ⟨S512, .f32⟩
  | .hbm, ⟨42, _⟩ => ⟨S_, .f32⟩
  | .hbm, ⟨43, _⟩ => ⟨S_, .f32⟩
  | .hbm, ⟨44, _⟩ => ⟨S512, .f32⟩
  | .hbm, ⟨45, _⟩ => ⟨S512, .f32⟩
  | .hbm, ⟨46, _⟩ => ⟨S_, .f32⟩
  | .hbm, ⟨47, _⟩ => ⟨S_, .f32⟩
  | .hbm, ⟨48, _⟩ => ⟨S512, .i32⟩
  | .hbm, ⟨49, _⟩ => ⟨S_, .i32⟩
  | .hbm, ⟨50, _⟩ => ⟨S_, .i32⟩
  | .hbm, ⟨51, _⟩ => ⟨S_, .f32⟩
  | .hbm, ⟨52, _⟩ => ⟨S512x512, .f32⟩
  | .hbm, ⟨53, _⟩ => ⟨S512x512, .i32⟩
  | .hbm, ⟨54, _⟩ => ⟨S_, .i32⟩
  | .hbm, ⟨55, _⟩ => ⟨S512x512, .i32⟩
  | .hbm, ⟨56, _⟩ => ⟨S512x512, .i1⟩
  | .hbm, ⟨57, _⟩ => ⟨S512x512, .f32⟩
  | .hbm, ⟨58, _⟩ => ⟨S_, .i32⟩
  | .hbm, ⟨59, _⟩ => ⟨S512x512, .i32⟩
  | .hbm, ⟨60, _⟩ => ⟨S512x512, .i1⟩
  | .hbm, ⟨61, _⟩ => ⟨S512x512, .f32⟩
  | .hbm, ⟨62, _⟩ => ⟨S512x1x512, .f32⟩
  | .hbm, ⟨63, _⟩ => ⟨S_, .f32⟩
  | .hbm, ⟨64, _⟩ => ⟨S512x1x512, .f32⟩
  | .hbm, ⟨65, _⟩ => ⟨S512x1x512, .f32⟩
  | .hbm, ⟨66, _⟩ => ⟨S512x512x1, .f32⟩
  | .hbm, ⟨67, _⟩ => ⟨S512x512x512, .f32⟩
  | .hbm, ⟨68, _⟩ => ⟨S512x512x512, .f32⟩
  | .hbm, ⟨69, _⟩ => ⟨S512x512x512, .f32⟩
  | .hbm, ⟨70, _⟩ => ⟨S_, .f32⟩
  | .hbm, ⟨71, _⟩ => ⟨S512x512x512, .f32⟩
  | .hbm, ⟨72, _⟩ => ⟨S512x512x512, .f32⟩
  | .hbm, ⟨73, _⟩ => ⟨S512x512x1, .f32⟩
  | .hbm, ⟨74, _⟩ => ⟨S512x1x512, .f32⟩
  | .hbm, ⟨75, _⟩ => ⟨S512x512x512, .f32⟩
  | .hbm, ⟨76, _⟩ => ⟨S512x512x512, .f32⟩
  | .hbm, ⟨77, _⟩ => ⟨S512x512x512, .f32⟩
  | .hbm, ⟨78, _⟩ => ⟨S512x512x512, .f32⟩
  | .hbm, ⟨79, _⟩ => ⟨S_, .f32⟩
  | .hbm, ⟨80, _⟩ => ⟨S512, .f32⟩
  | .hbm, ⟨81, _⟩ => ⟨S_, .f32⟩
  | .hbm, ⟨82, _⟩ => ⟨S512, .f32⟩
  | .hbm, ⟨83, _⟩ => ⟨S_, .f32⟩
  | .hbm, ⟨84, _⟩ => ⟨S512, .f32⟩
  | .hbm, ⟨85, _⟩ => ⟨S512, .f32⟩
  | .hbm, ⟨86, _⟩ => ⟨S_, .f32⟩
  | .hbm, ⟨87, _⟩ => ⟨S512, .f32⟩
  | .hbm, ⟨88, _⟩ => ⟨S512, .i1⟩
  | .hbm, ⟨89, _⟩ => ⟨S_, .f32⟩
  | .hbm, ⟨90, _⟩ => ⟨S_, .f32⟩
  | .hbm, ⟨91, _⟩ => ⟨S512, .f32⟩
  | .hbm, ⟨92, _⟩ => ⟨S512, .f32⟩
  | .hbm, ⟨93, _⟩ => ⟨S512, .f32⟩
  | .hbm, ⟨94, _⟩ => ⟨S_, .f32⟩
  | .hbm, ⟨95, _⟩ => ⟨S_, .f32⟩
  | .hbm, ⟨96, _⟩ => ⟨S512, .f32⟩
  | .hbm, ⟨97, _⟩ => ⟨S512, .f32⟩
  | .hbm, ⟨98, _⟩ => ⟨S_, .f32⟩
  | .hbm, ⟨99, _⟩ => ⟨S_, .f32⟩
  | .hbm, ⟨100, _⟩ => ⟨S512, .i32⟩
  | .hbm, ⟨101, _⟩ => ⟨S_, .i32⟩
  | .hbm, ⟨102, _⟩ => ⟨S_, .i32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_cst : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_call1_v0 : Ref sig .tc := ⟨.hbm, 38, rfl⟩
abbrev main_call1_v1 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_call2_v0 : Ref sig .tc := ⟨.hbm, 43, rfl⟩
abbrev main_call2_v1 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_c_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_11 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call3_cst : Ref sig .tc := ⟨.hbm, 70, rfl⟩
abbrev main_call3_v0 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_cst_13 : Ref sig .tc := ⟨.hbm, 81, rfl⟩
abbrev main_v56 : Ref sig .tc := ⟨.hbm, 82, rfl⟩
abbrev main_cst_14 : Ref sig .tc := ⟨.hbm, 83, rfl⟩
abbrev main_v57 : Ref sig .tc := ⟨.hbm, 84, rfl⟩
abbrev main_v58 : Ref sig .tc := ⟨.hbm, 85, rfl⟩
abbrev main_cst_15 : Ref sig .tc := ⟨.hbm, 86, rfl⟩
abbrev main_v59 : Ref sig .tc := ⟨.hbm, 87, rfl⟩
abbrev main_v60 : Ref sig .tc := ⟨.hbm, 88, rfl⟩
abbrev main_cst_16 : Ref sig .tc := ⟨.hbm, 89, rfl⟩
abbrev main_call4_v0 : Ref sig .tc := ⟨.hbm, 90, rfl⟩
abbrev main_call4_v1 : Ref sig .tc := ⟨.hbm, 91, rfl⟩
abbrev main_v61 : Ref sig .tc := ⟨.hbm, 92, rfl⟩
abbrev main_v62 : Ref sig .tc := ⟨.hbm, 93, rfl⟩
abbrev main_cst_17 : Ref sig .tc := ⟨.hbm, 94, rfl⟩
abbrev main_call5_v0 : Ref sig .tc := ⟨.hbm, 95, rfl⟩
abbrev main_call5_v1 : Ref sig .tc := ⟨.hbm, 96, rfl⟩
abbrev main_v63 : Ref sig .tc := ⟨.hbm, 97, rfl⟩
abbrev main_cst_18 : Ref sig .tc := ⟨.hbm, 98, rfl⟩
abbrev main_v64 : Ref sig .tc := ⟨.hbm, 99, rfl⟩
abbrev main_v65 : Ref sig .tc := ⟨.hbm, 100, rfl⟩
abbrev main_c_19 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  bcast_S512x512_S512x1x512_0_2 : S512x512.BroadcastsInDim S512x1x512 (![0, 2] : Fin 2 → Fin S512x1x512.rank)
  bcast_S_S512x1x512 : S_.BroadcastsInDim S512x1x512 (![] : Fin 0 → Fin S512x1x512.rank)
  bcast_S512x512_S512x512x1_0_1 : S512x512.BroadcastsInDim S512x512x1 (![0, 1] : Fin 2 → Fin S512x512x1.rank)
  bcast_S512x1x512_S512x512x512_0_1_2 : S512x1x512.BroadcastsInDim S512x512x512 (![0, 1, 2] : Fin 3 → Fin S512x512x512.rank)
  bcast_S512x512x1_S512x512x512_0_1_2 : S512x512x1.BroadcastsInDim S512x512x512 (![0, 1, 2] : Fin 3 → Fin S512x512x512.rank)
  bcast_S_S512x512x512 : S_.BroadcastsInDim S512x512x512 (![] : Fin 0 → Fin S512x512x512.rank)
  reducesTo_S512x512x512_S512_d1_2 : S512x512x512.ReducesTo [1, 2] S512
  h_S_ : 0 < S_.numel
  reducesTo_S512x512_S512_d1 : S512x512.ReducesTo [1] S512
  bcast_S_S512 : S_.BroadcastsInDim S512 (![] : Fin 0 → Fin S512.rank)
  reducesTo_S512_S_d0 : S512.ReducesTo [0] S_
  natLt_1_32 : 1 < 32
  transposes_S512x512_S512x512_1_0 : S512x512.Transposes [1, 0] S512x512

variable [Facts₀]

class Facts : Prop extends Facts₀ where

variable [Facts]
-- ==== Proof.RowMath.lean ====
/-
  The mathematics of one row of the bidirectional pairwise ranking loss, on the extended reals.

  For a row of scores `s`, a mask `p` of the positive entries and a mask `q` of the negative entries (each entry of a
  mask is 0 or 1), the row's total is the sum over pairs (i, j) of the hinge `max (s j + margin - s i) 0` weighted by
  `p i * q j`; the row's pair count is `(∑ p) * (∑ q)`; the row's mean is total / count where the count is positive and
  0 elsewhere; the row is valid where the count is positive.

  One program sums the hinge against `q` over `j` first and multiplies by `p i` afterwards; the other multiplies each
  hinge by `p i * q j` and sums over all pairs at once. The two agree because `p i` is 0 or 1: multiplying a sum
  by 0 or by 1 distributes over the sum on the extended reals, infinities or not (`total_regroup`).

  The number of valid rows is counted by one program as a float sum of 0/1 values and by the other as a 32-bit
  integer sum of 0/1 words converted afterwards: at most 512 ones never wrap, so the two are the same number (the
  counting lemma has a module of its own).
-/
import Idealize.ShloMosaic.PureOps.Ideal
import Idealize.ShloMosaic.PureOps.Ideal.Laws

noncomputable section

namespace Cert.RowMath

open Idealize.ShloMosaic

/-- The margin 0.2 as the programs write it (the same 32-bit pattern in both). -/
def margin : EReal := Ideal.ofBits .f32 0x3E4CCCCD#32
/-- The denominator used where a row has no pair. -/
def one : EReal := Ideal.ofBits .f32 0x3F800000#32

/-- The hinge of the pair (i, j): how far `s j` plus the margin exceeds `s i`, or 0. -/
def hinge (s : Fin 512 → EReal) (i j : Fin 512) : EReal := max (s j + margin - s i) 0

/-- A row's total, summed over `j` first. -/
def rowTot (s p q : Fin 512 → EReal) : EReal := ∑ i, (∑ j, hinge s i j * q j) * p i

/-- A row's number of (positive, negative) pairs. -/
def rowCnt (p q : Fin 512 → EReal) : EReal := (∑ i, p i) * (∑ j, q j)

/-- Whether a count is positive, as the one-bit answer of the comparison. -/
def positive (cnt : EReal) : BitVec 1 := Ideal.cmp .ogt cnt 0

/-- Total over count where the count is positive, 0 elsewhere. -/
def meanOf (tot cnt : EReal) : EReal :=
  Scalar.select (positive cnt) (Ideal.div tot (Scalar.select (positive cnt) cnt one)) 0

/-- The positivity bit as a number: widened to a word and read as a signed integer. -/
def validOf (cnt : EReal) : EReal := ((((positive cnt).setWidth 32).toInt : ℝ) : EReal)

/-- A row's mean. -/
def rowMean (s p q : Fin 512 → EReal) : EReal := meanOf (rowTot s p q) (rowCnt p q)

/-- A row's validity, 0 or 1. -/
def rowValid (p q : Fin 512 → EReal) : EReal := validOf (rowCnt p q)

/-- THE REGROUPING LAW. With every `p i` equal to 0 or 1, the sum over all pairs of the hinge (its margin added on the
    other side) times `p i * q j` is the total summed over `j` first and multiplied by `p i` afterwards. -/
theorem total_regroup (s p q : Fin 512 → EReal) (hp : ∀ i, p i = 0 ∨ p i = 1) :
    ∑ i, ∑ j, max (margin + s j - s i) 0 * (p i * q j) = rowTot s p q := by
  unfold rowTot hinge
  refine Finset.sum_congr rfl fun i _ => ?_
  rcases hp i with h | h
  · rw [h, mul_zero]
    exact Finset.sum_eq_zero fun j _ => by rw [zero_mul, mul_zero]
  · rw [h, mul_one]
    exact Finset.sum_congr rfl fun j _ => by rw [one_mul, add_comm margin (s j)]

end Cert.RowMath

end
-- ==== Proof.KernelArray.lean ====
/-
  From the blocks the kernel writes back to its two result arrays.

  The grid has 2 × 32 points; point (o, b) loads rows 16·b … 16·b + 15 of side o of each of the three operand arrays
  (all 512 columns) and writes back the 16 means and the 16 validity values of those rows, into rows 16·b … 16·b + 15 of
  side o of the two [2, 512, 1] result arrays. So entry (o, n, 0) of the first result array is the mean of row n of side o
  (a function of that one row of each operand array), entry (o, n, 0) of the second its validity; every entry is written
  by exactly the point (o, n / 16), so the arrays end holding these functions everywhere.

  The two facts about one block — what the body leaves at row r of an output block is the row function of row r of the
  input blocks — are hypotheses here (`hmean`, `hvalid`); the module that reads the body's arithmetic supplies them.
-/
import proofs.«167897_j86543591015116_2_alg».proof.Proof.Gen.KernelIdeal.Frame
import proofs.«167897_j86543591015116_2_alg».proof.Proof.RowMath
import Idealize.ShloMosaic.Lib.Pipeline.Value
import Idealize.ShloMosaic.Lib.ValueIdx

set_option maxRecDepth 16384

noncomputable section

namespace Cert.KernelIdeal.ArrayValue

open Idealize.ShloMosaic Idealize.ShloMosaic.TcCoe Idealize.SL.Sem Idealize.ShloMosaic.ValueIdx
open Cert.KernelIdeal Cert.KernelIdeal.Gen Cert.RowMath

/-- Row (i 1) of side (i 0) of an operand array, as a function of the column. -/
def rowOf (A : S2x512x512.Idx → EReal) (i : S2x512x1.Idx) : Fin 512 → EReal :=
  fun k => A (ix3 (⟨(i 0).val, (i 0).isLt⟩ : Fin 2) (⟨(i 1).val, (i 1).isLt⟩ : Fin 512) k)

/-- What the first result array ends holding: at (o, n, 0) the mean of row n of side o. -/
def meanArr (A0 A1 A2 : S2x512x512.Idx → EReal) : S2x512x1.Idx → EReal :=
  fun i => rowMean (rowOf A0 i) (rowOf A1 i) (rowOf A2 i)

/-- What the second result array ends holding: at (o, n, 0) the validity of row n of side o. -/
def validArr (A1 A2 : S2x512x512.Idx → EReal) : S2x512x1.Idx → EReal :=
  fun i => rowValid (rowOf A1 i) (rowOf A2 i)

/-- The statement about one block of means: at row r of the output block, the row mean of row r of the input blocks. -/
def MeanBlock : Prop :=
  ∀ (x0 x1 x2 : Vec Ideal S1x16x512 .f32) (u : Fin 1) (r : Fin 16) (u' : Fin 1),
    out0_3 (F := Ideal) x0 x1 x2 (ix3 u r u')
      = rowMean (fun k : Fin 512 => x0 (ix3 (0 : Fin 1) r k)) (fun k => x1 (ix3 (0 : Fin 1) r k)) (fun k => x2 (ix3 (0 : Fin 1) r k))

/-- The statement about one block of validity values. -/
def ValidBlock : Prop :=
  ∀ (x0 x1 x2 : Vec Ideal S1x16x512 .f32) (u : Fin 1) (r : Fin 16) (u' : Fin 1),
    out0_4 (F := Ideal) x0 x1 x2 (ix3 u r u')
      = rowValid (fun k : Fin 512 => x1 (ix3 (0 : Fin 1) r k)) (fun k => x2 (ix3 (0 : Fin 1) r k))

/-- An index of an output block is the index of its coordinates. -/
theorem eq_coords (y : S1x16x1.Idx) :
    y = ix3 (⟨(y 0).val, (y 0).isLt⟩ : Fin 1) (⟨(y 1).val, (y 1).isLt⟩ : Fin 16) (⟨(y 2).val, (y 2).isLt⟩ : Fin 1) := by
  funext a; match a with | ⟨0, _⟩ => rfl | ⟨1, _⟩ => rfl | ⟨2, _⟩ => rfl

/-- AT ONE POINT, for ANY input blocks whose row (y 1) is row (i 1) of side (i 0) of the operand arrays, the body's
    block of means at y is the first result function at i. -/
theorem point_mean (hmean : MeanBlock) (A0 A1 A2 : S2x512x512.Idx → EReal) (x0 x1 x2 : Vec Ideal S1x16x512 .f32)
    (y : S1x16x1.Idx) (i : S2x512x1.Idx)
    (h0 : ∀ k : Fin 512, x0 (ix3 (0 : Fin 1) (⟨(y 1).val, (y 1).isLt⟩ : Fin 16) k) = rowOf A0 i k)
    (h1 : ∀ k : Fin 512, x1 (ix3 (0 : Fin 1) (⟨(y 1).val, (y 1).isLt⟩ : Fin 16) k) = rowOf A1 i k)
    (h2 : ∀ k : Fin 512, x2 (ix3 (0 : Fin 1) (⟨(y 1).val, (y 1).isLt⟩ : Fin 16) k) = rowOf A2 i k) :
    out0_3 (F := Ideal) x0 x1 x2 y = meanArr A0 A1 A2 i := by
  refine (congrArg (out0_3 (F := Ideal) x0 x1 x2) (eq_coords y)).trans ((hmean x0 x1 x2 _ _ _).trans ?_)
  unfold meanArr
  rw [funext h0, funext h1, funext h2]

/-- The same for the block of validity values. -/
theorem point_valid (hvalid : ValidBlock) (A1 A2 : S2x512x512.Idx → EReal) (x0 x1 x2 : Vec Ideal S1x16x512 .f32)
    (y : S1x16x1.Idx) (i : S2x512x1.Idx)
    (h1 : ∀ k : Fin 512, x1 (ix3 (0 : Fin 1) (⟨(y 1).val, (y 1).isLt⟩ : Fin 16) k) = rowOf A1 i k)
    (h2 : ∀ k : Fin 512, x2 (ix3 (0 : Fin 1) (⟨(y 1).val, (y 1).isLt⟩ : Fin 16) k) = rowOf A2 i k) :
    out0_4 (F := Ideal) x0 x1 x2 y = validArr A1 A2 i := by
  refine (congrArg (out0_4 (F := Ideal) x0 x1 x2) (eq_coords y)).trans ((hvalid x0 x1 x2 _ _ _).trans ?_)
  unfold validArr
  rw [funext h1, funext h2]

/-! ## The index maps over the grid -/

/-- The printed index maps, decided over the 64 points: every window's block index is (side, row block, 0), the same side
    and row block for the five windows, the side below 2 and the row block below 32. -/
theorem idx_facts : ∀ t : Fin cfg0.N,
    win0_0.index t (0 : Fin 3) = win0_3.index t (0 : Fin 3) ∧ win0_0.index t (1 : Fin 3) = win0_3.index t (1 : Fin 3) ∧ win0_0.index t (2 : Fin 3) = 0
    ∧ win0_1.index t (0 : Fin 3) = win0_3.index t (0 : Fin 3) ∧ win0_1.index t (1 : Fin 3) = win0_3.index t (1 : Fin 3) ∧ win0_1.index t (2 : Fin 3) = 0
    ∧ win0_2.index t (0 : Fin 3) = win0_3.index t (0 : Fin 3) ∧ win0_2.index t (1 : Fin 3) = win0_3.index t (1 : Fin 3) ∧ win0_2.index t (2 : Fin 3) = 0
    ∧ win0_4.index t (0 : Fin 3) = win0_3.index t (0 : Fin 3) ∧ win0_4.index t (1 : Fin 3) = win0_3.index t (1 : Fin 3) ∧ win0_4.index t (2 : Fin 3) = 0
    ∧ win0_3.index t (0 : Fin 3) ≤ 1 ∧ win0_3.index t (1 : Fin 3) ≤ 31 ∧ win0_3.index t (2 : Fin 3) = 0 :=
  (by decide +kernel : ∀ t : Fin grid0.N, _)

/-- Every (side, row block) is some point's. -/
theorem idx_onto : ∀ (q0 : Fin 2) (q1 : Fin 32), ∃ t : Fin cfg0.N, win0_3.index t = ![q0.val, q1.val, 0] :=
  (by decide +kernel : ∀ (q0 : Fin 2) (q1 : Fin 32), ∃ t : Fin grid0.N, win0_3.index t = ![q0.val, q1.val, 0])

variable (m : (ℓ : Loc nD τ sig) → Buf (Elt Ideal) ℓ)

/-! ## What each point writes back -/

/-- Where an output block's index lands in the result array: on the point's side, in the point's 16 rows. -/
theorem emb3 (t : Fin cfg0.N) (y : S1x16x1.Idx) :
    ((((cfg0.win 3).blk t).view.emb y) 0).val = win0_3.index t (0 : Fin 3)
      ∧ ((((cfg0.win 3).blk t).view.emb y) 1).val = win0_3.index t (1 : Fin 3) * 16 + (y 1).val := by
  have hy0 : (y 0).val < 1 := (y 0).isLt
  constructor
  · show win0_3.index t (0 : Fin 3) * 1 + 1 * (y 0).val = _; omega
  · show win0_3.index t (1 : Fin 3) * 16 + 1 * (y 1).val = _; omega
theorem emb4 (t : Fin cfg0.N) (y : S1x16x1.Idx) :
    ((((cfg0.win 4).blk t).view.emb y) 0).val = win0_3.index t (0 : Fin 3)
      ∧ ((((cfg0.win 4).blk t).view.emb y) 1).val = win0_3.index t (1 : Fin 3) * 16 + (y 1).val := by
  obtain ⟨-, -, -, -, -, -, -, -, -, e40, e41, -, -, -, -⟩ := idx_facts t
  have hy0 : (y 0).val < 1 := (y 0).isLt
  constructor
  · show win0_4.index t (0 : Fin 3) * 1 + 1 * (y 0).val = _; omega
  · show win0_4.index t (1 : Fin 3) * 16 + 1 * (y 1).val = _; omega

/-- Row (y 1) of the scores' block at point t is row (i 1) of side (i 0) of the stacked scores, for any result index i on
    the point's side at row (y 1) of the point's 16 rows. -/
theorem in_row0 (c : Dev nD) (t : Fin cfg0.N) (y : S1x16x1.Idx) (i : S2x512x1.Idx)
    (hi0 : (i 0).val = win0_3.index t (0 : Fin 3)) (hi1 : (i 1).val = win0_3.index t (1 : Fin 3) * 16 + (y 1).val) (k : Fin 512) :
    iblk m c 0 t (ix3 (0 : Fin 1) (⟨(y 1).val, (y 1).isLt⟩ : Fin 16) k) = rowOf (V m c main_v9) i k := by
  obtain ⟨e00, e01, e02, -, -, -, -, -, -, -, -, -, -, -, -⟩ := idx_facts t
  show V m c main_v9 (((cfg0.win 0).blk t).view.emb (ix3 (0 : Fin 1) (⟨(y 1).val, (y 1).isLt⟩ : Fin 16) k)) = V m c main_v9 _
  refine congrArg (V m c main_v9) (funext fun a => Fin.ext ?_)
  match a with
  | ⟨0, _⟩ => show win0_0.index t (0 : Fin 3) * 1 + 1 * 0 = (i 0).val; omega
  | ⟨1, _⟩ => show win0_0.index t (1 : Fin 3) * 16 + 1 * (y 1).val = (i 1).val; omega
  | ⟨2, _⟩ => show win0_0.index t (2 : Fin 3) * 512 + 1 * k.val = k.val; omega
/-- The same for the mask of positives. -/
theorem in_row1 (c : Dev nD) (t : Fin cfg0.N) (y : S1x16x1.Idx) (i : S2x512x1.Idx)
    (hi0 : (i 0).val = win0_3.index t (0 : Fin 3)) (hi1 : (i 1).val = win0_3.index t (1 : Fin 3) * 16 + (y 1).val) (k : Fin 512) :
    iblk m c 1 t (ix3 (0 : Fin 1) (⟨(y 1).val, (y 1).isLt⟩ : Fin 16) k) = rowOf (V m c main_v13) i k := by
  obtain ⟨-, -, -, e10, e11, e12, -, -, -, -, -, -, -, -, -⟩ := idx_facts t
  show V m c main_v13 (((cfg0.win 1).blk t).view.emb (ix3 (0 : Fin 1) (⟨(y 1).val, (y 1).isLt⟩ : Fin 16) k)) = V m c main_v13 _
  refine congrArg (V m c main_v13) (funext fun a => Fin.ext ?_)
  match a with
  | ⟨0, _⟩ => show win0_1.index t (0 : Fin 3) * 1 + 1 * 0 = (i 0).val; omega
  | ⟨1, _⟩ => show win0_1.index t (1 : Fin 3) * 16 + 1 * (y 1).val = (i 1).val; omega
  | ⟨2, _⟩ => show win0_1.index t (2 : Fin 3) * 512 + 1 * k.val = k.val; omega
/-- The same for the mask of negatives. -/
theorem in_row2 (c : Dev nD) (t : Fin cfg0.N) (y : S1x16x1.Idx) (i : S2x512x1.Idx)
    (hi0 : (i 0).val = win0_3.index t (0 : Fin 3)) (hi1 : (i 1).val = win0_3.index t (1 : Fin 3) * 16 + (y 1).val) (k : Fin 512) :
    iblk m c 2 t (ix3 (0 : Fin 1) (⟨(y 1).val, (y 1).isLt⟩ : Fin 16) k) = rowOf (V m c main_v17) i k := by
  obtain ⟨-, -, -, -, -, -, e20, e21, e22, -, -, -, -, -, -⟩ := idx_facts t
  show V m c main_v17 (((cfg0.win 2).blk t).view.emb (ix3 (0 : Fin 1) (⟨(y 1).val, (y 1).isLt⟩ : Fin 16) k)) = V m c main_v17 _
  refine congrArg (V m c main_v17) (funext fun a => Fin.ext ?_)
  match a with
  | ⟨0, _⟩ => show win0_2.index t (0 : Fin 3) * 1 + 1 * 0 = (i 0).val; omega
  | ⟨1, _⟩ => show win0_2.index t (1 : Fin 3) * 16 + 1 * (y 1).val = (i 1).val; omega
  | ⟨2, _⟩ => show win0_2.index t (2 : Fin 3) * 512 + 1 * k.val = k.val; omega

/-- WHAT POINT t WRITES BACK into the first result array is block t of the function of means. -/
theorem flushed_mean (hmean : MeanBlock) (c : Dev nD) (t : Fin cfg0.N) :
    (dats m 0 c).flushed 3 t
      = ((cfg0.win 3).blk t).view.read (Elt Ideal) (meanArr (V m c main_v9) (V m c main_v13) (V m c main_v17)) := by
  show (cfg0.win 3).cut (grid0.coords t) ((dats m 0 c).after 3 t) = _
  rw [after0_3]
  funext y
  obtain ⟨h0, h1⟩ := emb3 t y
  show out0_3 (F := Ideal) (iblk m c 0 t) (iblk m c 1 t) (iblk m c 2 t) y
    = meanArr (V m c main_v9) (V m c main_v13) (V m c main_v17) (((cfg0.win 3).blk t).view.emb y)
  exact point_mean hmean _ _ _ _ _ _ y _ (in_row0 m c t y _ h0 h1) (in_row1 m c t y _ h0 h1) (in_row2 m c t y _ h0 h1)

/-- WHAT POINT t WRITES BACK into the second result array is block t of the function of validity values. -/
theorem flushed_valid (hvalid : ValidBlock) (c : Dev nD) (t : Fin cfg0.N) :
    (dats m 0 c).flushed 4 t
      = ((cfg0.win 4).blk t).view.read (Elt Ideal) (validArr (V m c main_v13) (V m c main_v17)) := by
  show (cfg0.win 4).cut (grid0.coords t) ((dats m 0 c).after 4 t) = _
  rw [after0_4]
  funext y
  obtain ⟨h0, h1⟩ := emb4 t y
  show out0_4 (F := Ideal) (iblk m c 0 t) (iblk m c 1 t) (iblk m c 2 t) y
    = validArr (V m c main_v13) (V m c main_v17) (((cfg0.win 4).blk t).view.emb y)
  exact point_valid hvalid _ _ _ _ _ y _ (in_row1 m c t y _ h0 h1) (in_row2 m c t y _ h0 h1)

/-! ## The blocks cover the result arrays -/

/-- An index of the first result array is in point t's block iff each coordinate is in the block's range on its axis. -/
theorem mem_blk3 (t : Fin cfg0.N) (i : S2x512x1.Idx) :
    i ∈ ((cfg0.win 3).blk t).view.set ↔ ∀ a : Fin 3, win0_3.index t a * S1x16x1.size a ≤ (i a).val
      ∧ (i a).val < win0_3.index t a * S1x16x1.size a + S1x16x1.size a := by
  show i ∈ ((View.whole main_v18_0).slice (win0_3.rect t)).set ↔ _
  rw [View.set_slice_whole, Rect.mem_set_unit]
  exact Iff.rfl
theorem mem_blk4 (t : Fin cfg0.N) (i : S2x512x1.Idx) :
    i ∈ ((cfg0.win 4).blk t).view.set ↔ ∀ a : Fin 3, win0_4.index t a * S1x16x1.size a ≤ (i a).val
      ∧ (i a).val < win0_4.index t a * S1x16x1.size a + S1x16x1.size a := by
  show i ∈ ((View.whole main_v18_1).slice (win0_4.rect t)).set ↔ _
  rw [View.set_slice_whole, Rect.mem_set_unit]
  exact Iff.rfl

/-- Entry (o, n, 0) is in the block of the point (o, n / 16). -/
theorem cover3 (i : S2x512x1.Idx) : ∃ t : Fin cfg0.N, (cfg0.win 3).flush t = true ∧ i ∈ ((cfg0.win 3).blk t).view.set := by
  have hi0 : (i 0).val < 2 := (i 0).isLt
  have hi1 : (i 1).val < 512 := (i 1).isLt
  have hi2 : (i 2).val < 1 := (i 2).isLt
  obtain ⟨t, ht⟩ := idx_onto ⟨(i 0).val, hi0⟩ ⟨(i 1).val / 16, by omega⟩
  have q0 : win0_3.index t (0 : Fin 3) = (i 0).val := congrFun ht 0
  have q1 : win0_3.index t (1 : Fin 3) = (i 1).val / 16 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 16 ≤ (i 1).val ∧ (i 1).val < win0_3.index t (1 : Fin 3) * 16 + 16; omega
  | ⟨2, _⟩ => show win0_3.index t (2 : Fin 3) * 1 ≤ (i 2).val ∧ (i 2).val < win0_3.index t (2 : Fin 3) * 1 + 1; omega
theorem cover4 (i : S2x512x1.Idx) : ∃ t : Fin cfg0.N, (cfg0.win 4).flush t = true ∧ i ∈ ((cfg0.win 4).blk t).view.set := by
  have hi0 : (i 0).val < 2 := (i 0).isLt
  have hi1 : (i 1).val < 512 := (i 1).isLt
  have hi2 : (i 2).val < 1 := (i 2).isLt
  obtain ⟨t, ht⟩ := idx_onto ⟨(i 0).val, hi0⟩ ⟨(i 1).val / 16, by omega⟩
  have q0 : win0_3.index t (0 : Fin 3) = (i 0).val := congrFun ht 0
  have q1 : win0_3.index t (1 : Fin 3) = (i 1).val / 16 := congrFun ht 1
  obtain ⟨-, -, -, -, -, -, -, -, -, e40, e41, e42, -, -, -⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 16 ≤ (i 1).val ∧ (i 1).val < win0_4.index t (1 : Fin 3) * 16 + 16; omega
  | ⟨2, _⟩ => show win0_4.index t (2 : Fin 3) * 1 ≤ (i 2).val ∧ (i 2).val < win0_4.index t (2 : Fin 3) * 1 + 1; omega

/-! ## The two result arrays after the region -/

/-- The first result array ends holding the function of means of the three operand arrays. -/
theorem final_mean (hmean : MeanBlock) (c : Dev nD) :
    (dats m 0 c).arrAt 3 cfg0.N = meanArr (V m c main_v9) (V m c main_v13) (V m c main_v17) :=
  (dats m 0 c).arrAt_eq_of_cover 3 _ (fun t _ => flushed_mean m hmean c t) cover3

/-- The second result array ends holding the function of validity values. -/
theorem final_valid (hvalid : ValidBlock) (c : Dev nD) :
    (dats m 0 c).arrAt 4 cfg0.N = validArr (V m c main_v13) (V m c main_v17) :=
  (dats m 0 c).arrAt_eq_of_cover 4 _ (fun t _ => flushed_valid m hvalid c t) cover4

end Cert.KernelIdeal.ArrayValue

end
-- ==== Proof.LibIndicator.lean ====
/-
  The indicator of an equality of two numbers, as the programs compute it from 32-bit words.

  A mask such as an identity matrix is computed by comparing a row number with a column number, both 32-bit
  words, and turning the one-bit answer into a float: either widened to 32 bits and read as a signed integer, or read
  directly as an unsigned integer. On the extended reals both are the indicator `[i = k]` (1 if equal, 0 if not), as
  long as the numbers fit in 32 bits. A row number may be given as a tile's first row plus a local row.
-/
import Idealize.ShloMosaic.PureOps.Ideal
import Idealize.ShloMosaic.PureOps.Ideal.Laws

noncomputable section

namespace Cert.Lib.Indicator

open Idealize.ShloMosaic

/-- The indicator of `i = k` as an extended real. -/
def ind (i k : ℕ) : EReal := if i = k then 1 else 0

/-- Two naturals below 2³² are equal iff their 32-bit words are. -/
theorem ofNat_eq_iff (a b : ℕ) (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- The one-bit answer of a word comparison, widened to 32 bits and read as a signed integer, is 1 or 0. -/
theorem signed_bit (a b : BitVec 32) :
    ((((BitVec.ofBool (a == b)).setWidth 32).toInt : ℝ) : EReal) = if a = b then 1 else 0 := by
  by_cases h : a = b
  · subst h
    rw [if_pos rfl, beq_self_eq_true]
    show ((((1#1 : BitVec 1).setWidth 32).toInt : ℝ) : EReal) = 1
    rw [show ((1#1 : BitVec 1).setWidth 32).toInt = 1 by decide]
    simp
  · rw [if_neg h, show (a == b) = false from beq_false_of_ne h]
    show ((((0#1 : BitVec 1).setWidth 32).toInt : ℝ) : EReal) = 0
    rw [show ((0#1 : BitVec 1).setWidth 32).toInt = 0 by decide]
    simp

/-- The same answer read directly as an unsigned integer is 1 or 0 too. -/
theorem unsigned_bit (a b : BitVec 32) :
    (((BitVec.ofBool (a == b)).toNat : ℝ) : EReal) = if a = b then 1 else 0 := by
  by_cases h : a = b
  · subst h
    rw [if_pos rfl, beq_self_eq_true]
    show ((((1#1 : BitVec 1)).toNat : ℝ) : EReal) = 1
    rw [show ((1#1 : BitVec 1)).toNat = 1 by decide]
    simp
  · rw [if_neg h, show (a == b) = false from beq_false_of_ne h]
    show ((((0#1 : BitVec 1)).toNat : ℝ) : EReal) = 0
    rw [show ((0#1 : BitVec 1)).toNat = 0 by decide]
    simp

/-- Row `ro + r` (a tile's first row plus a local row, added as words) against column `k`, the answer widened and read
    signed: the indicator of `ro + r = k`. -/
theorem ind_of_signed (ro r k : ℕ) (h : ro + r < 2 ^ 32) (hk : k < 2 ^ 32) :
    FloatOps.sitofp (F := Ideal) .f32
        ((IntOp.cmpi .eq (IntOp.addi (BitVec.ofNat 32 ro) (BitVec.ofNat 32 r)) (BitVec.ofNat 32 k)).setWidth 32)
      = ind (ro + r) k := by
  show ((((BitVec.ofBool (BitVec.ofNat 32 ro + BitVec.ofNat 32 r == BitVec.ofNat 32 k)).setWidth 32).toInt : ℝ) : EReal) = _
  rw [signed_bit, ← BitVec.ofNat_add]
  unfold ind
  by_cases e : ro + r = k
  · rw [if_pos e, if_pos ((ofNat_eq_iff _ _ h hk).2 e)]
  · rw [if_neg e, if_neg (fun h' => e ((ofNat_eq_iff _ _ h hk).1 h'))]

/-- Row `i` (with a zero word added, as an identity matrix with no offset is written) against column `k`, the answer
    read unsigned: the indicator of `i = k`. -/
theorem ind_of_unsigned (i k : ℕ) (hi : i < 2 ^ 32) (hk : k < 2 ^ 32) :
    FloatOps.uitofp (F := Ideal) .f32 (IntOp.cmpi .eq (IntOp.addi (BitVec.ofNat 32 i) 0#32) (BitVec.ofNat 32 k))
      = ind i k := by
  show ((((BitVec.ofBool (BitVec.ofNat 32 i + 0#32 == BitVec.ofNat 32 k))).toNat : ℝ) : EReal) = _
  rw [unsigned_bit, BitVec.add_zero]
  unfold ind
  by_cases e : i = k
  · rw [if_pos e, if_pos ((ofNat_eq_iff _ _ hi hk).2 e)]
  · rw [if_neg e, if_neg (fun h' => e ((ofNat_eq_iff _ _ hi hk).1 h'))]

end Cert.Lib.Indicator

end
-- ==== Proof.Spec.lean ====
/-
  The bidirectional pairwise ranking loss of a 512 × 512 matrix of scores and a matrix of integer labels, as one
  function of the two arrays.

  A label equal to 1 marks a positive entry, a label equal to 0 a negative one. The loss looks at the matrix twice: row
  by row as it is (side 0), and row by row of its transpose (side 1). Each row of each side has a mean hinge over its
  (positive, negative) pairs and a validity bit (RowMath); the loss is the sum of the 1024 row means divided by the number
  of valid rows.
-/
import proofs.«167897_j86543591015116_2_alg».proof.Proof.RowMath
import proofs.«167897_j86543591015116_2_alg».proof.Proof.LibIndicator
import Idealize.ShloMosaic.Lib.ValueIdx

noncomputable section

namespace Cert.Spec

open Idealize.ShloMosaic Idealize.ShloMosaic.ValueIdx Cert.RowMath

/-- The mask of the label words equal to `v`: the one-bit answer of the word comparison read as an unsigned integer. -/
def mask (v l : BitVec 32) : EReal := FloatOps.uitofp (F := Ideal) .f32 (IntOp.cmpi .eq l v)

/-- A mask entry is 0 or 1. -/
theorem mask_zero_or_one (v l : BitVec 32) : mask v l = 0 ∨ mask v l = 1 := by
  unfold mask
  show (((BitVec.ofBool (l == v)).toNat : ℝ) : EReal) = 0 ∨ (((BitVec.ofBool (l == v)).toNat : ℝ) : EReal) = 1
  rw [Cert.Lib.Indicator.unsigned_bit]
  by_cases h : l = v
  · right; rw [if_pos h]
  · left; rw [if_neg h]

/-- Entry `k` of row `n` of side `o`: side 0 reads the matrix as it is, side 1 its transpose. -/
def side {α : Type} (x : (⟨2, ![512, 512]⟩ : Shape).Idx → α) (o : Fin 2) (n k : Fin 512) : α :=
  if o.val = 0 then x (ix2 n k) else x (ix2 k n)

/-- Row `n` of side `o` of the scores. -/
def sRow (x0 : (⟨2, ![512, 512]⟩ : Shape).Idx → EReal) (o : Fin 2) (n : Fin 512) : Fin 512 → EReal := fun k => side x0 o n k
/-- Its mask of positive entries. -/
def pRow (x1 : (⟨2, ![512, 512]⟩ : Shape).Idx → BitVec 32) (o : Fin 2) (n : Fin 512) : Fin 512 → EReal :=
  fun k => mask 1#32 (side x1 o n k)
/-- Its mask of negative entries. -/
def qRow (x1 : (⟨2, ![512, 512]⟩ : Shape).Idx → BitVec 32) (o : Fin 2) (n : Fin 512) : Fin 512 → EReal :=
  fun k => mask 0#32 (side x1 o n k)

theorem pRow_zero_or_one (x1 : (⟨2, ![512, 512]⟩ : Shape).Idx → BitVec 32) (o : Fin 2) (n i : Fin 512) :
    pRow x1 o n i = 0 ∨ pRow x1 o n i = 1 := mask_zero_or_one _ _

/-- The mean of row `n` of side `o`. -/
def mean (x0 : (⟨2, ![512, 512]⟩ : Shape).Idx → EReal) (x1 : (⟨2, ![512, 512]⟩ : Shape).Idx → BitVec 32) (o : Fin 2) (n : Fin 512) : EReal :=
  rowMean (sRow x0 o n) (pRow x1 o n) (qRow x1 o n)

/-- Whether row `n` of side `o` has a pair, as 0 or 1. -/
def valid (x1 : (⟨2, ![512, 512]⟩ : Shape).Idx → BitVec 32) (o : Fin 2) (n : Fin 512) : EReal :=
  rowValid (pRow x1 o n) (qRow x1 o n)

/-- THE LOSS: the sum of both sides' row means over the number of valid rows of both sides. -/
def loss (x0 : (⟨2, ![512, 512]⟩ : Shape).Idx → EReal) (x1 : (⟨2, ![512, 512]⟩ : Shape).Idx → BitVec 32) : EReal :=
  Ideal.div ((∑ n, mean x0 x1 0 n) + ∑ n, mean x0 x1 1 n) ((∑ n, valid x1 0 n) + ∑ n, valid x1 1 n)

end Cert.Spec

end
-- ==== Proof.KernelHost.lean ====
/-
  What the kernel's region finds in its three operand arrays.

  Before the region the program stacks each matrix with its transpose along a new leading axis of extent 2: entry
  (o, n, k) of the stack is entry (n, k) of the matrix for o = 0 and entry (k, n) for o = 1 — row n of side o
  (Spec.side). It does so for the scores, for the mask of labels equal to 1 and for the mask of labels equal to 0; the
  masks are computed entry by entry before stacking, so stacking the mask is the mask of the stacked labels.
-/
import proofs.«167897_j86543591015116_2_alg».proof.Proof.Gen.KernelIdeal.Frame
import proofs.«167897_j86543591015116_2_alg».proof.Proof.Spec
import Idealize.ShloMosaic.Lib.StableHlo.Run
import Idealize.ShloMosaic.Lib.Pipeline.Value
import Idealize.ShloMosaic.Lib.ValueIdx

noncomputable section

namespace Cert.KernelIdeal.HostValue

open Idealize.ShloMosaic Idealize.ShloMosaic.TcCoe Idealize.SL.Sem Idealize.ShloMosaic.ValueIdx
open Cert.KernelIdeal Cert.KernelIdeal.Gen

/-- A matrix and its transpose, each given a leading unit axis, laid one after the other along that axis. -/
def stack {α : Type} (x : S512x512.Idx → α) : S2x512x512.Idx → α :=
  concatenate S2x512x512 0
    [⟨S1x512x512, broadcastInDim S1x512x512 ![1, 2] bcast_S512x512_S1x512x512_1_2 x⟩,
      ⟨S1x512x512, broadcastInDim S1x512x512 ![1, 2] bcast_S512x512_S1x512x512_1_2
        (transpose S512x512 [1, 0] x transposes_S512x512_S512x512_1_0)⟩]
    concatenates_S1x512x512_S1x512x512_S2x512x512_d0

/-- The matrix with a leading unit axis, read at (0, n, k), is the matrix at (n, k). -/
theorem lead_apply {α : Type} (x : S512x512.Idx → α) (n k : Fin 512) :
    broadcastInDim S1x512x512 ![1, 2] bcast_S512x512_S1x512x512_1_2 x (ix3 (0 : Fin 1) n k) = x (ix2 n k) :=
  broadcastInDim_apply _ bcast_S512x512_S1x512x512_1_2 x (ix3 (0 : Fin 1) n k) (ix2 n k) (fun a => match a with
    | ⟨0, _⟩ => by show n.val = if (512 : Nat) = 1 then 0 else n.val; rw [if_neg (by decide)]
    | ⟨1, _⟩ => by show k.val = if (512 : Nat) = 1 then 0 else k.val; rw [if_neg (by decide)])

/-- The transposed matrix at (n, k) is the matrix at (k, n). -/
theorem transposed_apply {α : Type} (x : S512x512.Idx → α) (n k : Fin 512) :
    transpose S512x512 [1, 0] x transposes_S512x512_S512x512_1_0 (ix2 n k) = x (ix2 k n) :=
  transpose_apply [1, 0] x transposes_S512x512_S512x512_1_0 (ix2 n k) (ix2 k n) (fun b => match b with
    | ⟨0, _⟩ => rfl
    | ⟨1, _⟩ => rfl)

/-- THE STACK AT AN ENTRY: entry (o, n, k) is entry k of row n of side o. -/
theorem stack_apply {α : Type} (x : S512x512.Idx → α) (o : Fin 2) (n k : Fin 512) :
    stack x (ix3 o n k) = Cert.Spec.side x o n k := by
  match o with
  | ⟨0, _⟩ =>
    show stack x _ = x (ix2 n k)
    unfold stack
    refine (concatenate_pair_apply_left (0 : Fin S2x512x512.rank) _ _ concatenates_S1x512x512_S1x512x512_S2x512x512_d0
      (ix3 (⟨0, by decide⟩ : Fin 2) n k) rfl (ix3 (0 : Fin 1) n k) (fun b => match b with
        | ⟨0, _⟩ => rfl
        | ⟨1, _⟩ => rfl
        | ⟨2, _⟩ => rfl)).trans ?_
    exact lead_apply x n k
  | ⟨1, _⟩ =>
    show stack x _ = x (ix2 k n)
    unfold stack
    refine (concatenate_pair_apply_right (0 : Fin S2x512x512.rank) _ _ concatenates_S1x512x512_S1x512x512_S2x512x512_d0
      (ix3 (⟨1, by decide⟩ : Fin 2) n k) rfl rfl (ix3 (0 : Fin 1) n k) (fun b => match b with
        | ⟨0, _⟩ => fun h => absurd rfl h
        | ⟨1, _⟩ => fun _ => rfl
        | ⟨2, _⟩ => fun _ => rfl) rfl).trans ?_
    exact (lead_apply _ n k).trans (transposed_apply x n k)

variable (m : (ℓ : Loc nD τ sig) → Buf (Elt Ideal) ℓ)

/-- The mask of the labels equal to 1, entry by entry, as the program computes it before stacking. -/
def posMat (x1 : S512x512.Idx → BitVec 32) : S512x512.Idx → EReal :=
  uitofp (F := Ideal) .f32 (cmpi .eq x1 (broadcastInDim S512x512 ![] bcast_S_S512x512 (constantI S_ 32 1#32)))
/-- The mask of the labels equal to 0. -/
def negMat (x1 : S512x512.Idx → BitVec 32) : S512x512.Idx → EReal :=
  uitofp (F := Ideal) .f32 (cmpi .eq x1 (broadcastInDim S512x512 ![] bcast_S_S512x512 (constantI S_ 32 0#32)))

theorem posMat_apply (x1 : S512x512.Idx → BitVec 32) (i : S512x512.Idx) : posMat x1 i = Cert.Spec.mask 1#32 (x1 i) := rfl
theorem negMat_apply (x1 : S512x512.Idx → BitVec 32) (i : S512x512.Idx) : negMat x1 i = Cert.Spec.mask 0#32 (x1 i) := rfl

/-- The region's first operand is the stacked scores. -/
theorem V_scores (c : Dev nD) :
    (V m c main_v9 : S2x512x512.Idx → EReal) = stack (m (c, Proc.tc.devRef main_arg0)) := by
  show StableHlo.after hostOps0 (fun b => m (c, b)) (Proc.devRef .tc main_v9) = _
  after_results
  rfl
/-- Its second operand is the stacked mask of positives. -/
theorem V_pos (c : Dev nD) :
    (V m c main_v13 : S2x512x512.Idx → EReal) = stack (posMat (m (c, Proc.tc.devRef main_arg1))) := by
  show StableHlo.after hostOps0 (fun b => m (c, b)) (Proc.devRef .tc main_v13) = _
  after_results
  rfl
/-- Its third operand is the stacked mask of negatives. -/
theorem V_neg (c : Dev nD) :
    (V m c main_v17 : S2x512x512.Idx → EReal) = stack (negMat (m (c, Proc.tc.devRef main_arg1))) := by
  show StableHlo.after hostOps0 (fun b => m (c, b)) (Proc.devRef .tc main_v17) = _
  after_results
  rfl

/-- Row n of side o of the scores, as the region finds it. -/
theorem scores_row (c : Dev nD) (o : Fin 2) (n : Fin 512) :
    (fun k : Fin 512 => (V m c main_v9 : S2x512x512.Idx → EReal) (ix3 o n k)) = Cert.Spec.sRow (m (c, Proc.tc.devRef main_arg0)) o n := by
  funext k; rw [V_scores]; exact stack_apply _ o n k
/-- Row n of side o of the mask of positives. -/
theorem pos_row (c : Dev nD) (o : Fin 2) (n : Fin 512) :
    (fun k : Fin 512 => (V m c main_v13 : S2x512x512.Idx → EReal) (ix3 o n k)) = Cert.Spec.pRow (m (c, Proc.tc.devRef main_arg1)) o n := by
  funext k; rw [V_pos, stack_apply]
  unfold Cert.Spec.pRow Cert.Spec.side
  split <;> rfl
/-- Row n of side o of the mask of negatives. -/
theorem neg_row (c : Dev nD) (o : Fin 2) (n : Fin 512) :
    (fun k : Fin 512 => (V m c main_v17 : S2x512x512.Idx → EReal) (ix3 o n k)) = Cert.Spec.qRow (m (c, Proc.tc.devRef main_arg1)) o n := by
  funext k; rw [V_neg, stack_apply]
  unfold Cert.Spec.qRow Cert.Spec.side
  split <;> rfl

end Cert.KernelIdeal.HostValue

end
-- ==== Proof.KernelTail.lean ====
/-
  The kernel's result: after the region the program sums each of the two [2, 512, 1] result arrays over all its entries
  and divides the first total by the second.

  A sum over the entries (o, n, 0) of such an array is the sum over the rows of side 0 plus the sum over the rows of side 1
  (the third coordinate takes one value). With the first array holding the row means and the second the row validity
  values of the stacked operands, and the stacked operands' rows being the rows of the two sides of the argument
  matrices (HostValue), the quotient is the loss of the argument arrays (Spec.loss).
-/
import proofs.«167897_j86543591015116_2_alg».proof.Proof.KernelArray
import proofs.«167897_j86543591015116_2_alg».proof.Proof.KernelHost
import Idealize.ShloMosaic.Lib.StableHlo.Run
import Idealize.ShloMosaic.PureOps.Ideal.Laws

set_option maxRecDepth 16384

noncomputable section

namespace Cert.KernelIdeal.TailValue

open Idealize.ShloMosaic Idealize.ShloMosaic.TcCoe Idealize.SL.Sem Idealize.ShloMosaic.ValueIdx
open Cert.KernelIdeal Cert.KernelIdeal.Gen Cert.RowMath Cert.KernelIdeal.ArrayValue

/-- The entries of a [2, 512, 1] array are the pairs (side, row). -/
def sideRowEquiv : S2x512x1.Idx ≃ Fin 2 × Fin 512 where
  toFun i := (⟨(i 0).val, (i 0).isLt⟩, ⟨(i 1).val, (i 1).isLt⟩)
  invFun p := ix3 p.1 p.2 (0 : Fin 1)
  left_inv i := by
    funext a
    match a with
    | ⟨0, _⟩ => rfl
    | ⟨1, _⟩ => rfl
    | ⟨2, _⟩ => exact Fin.ext (by have h : (i 2).val < 1 := (i 2).isLt; show (0 : ℕ) = (i 2).val; omega)
  right_inv _ := rfl

/-- A sum over all entries is the sum over side 0's rows plus the sum over side 1's rows. -/
theorem sum_sides (f : S2x512x1.Idx → EReal) :
    ∑ j, f j = (∑ n : Fin 512, f (ix3 (0 : Fin 2) n (0 : Fin 1))) + ∑ n : Fin 512, f (ix3 (1 : Fin 2) n (0 : Fin 1)) := by
  rw [← Equiv.sum_comp sideRowEquiv.symm f, Fintype.sum_prod_type, Fin.sum_univ_two]
  rfl

/-- The program's sum of a whole [2, 512, 1] array from the initial value 0 is the sum of its entries. -/
theorem total_apply (a : S2x512x1.Idx → EReal) (i : S_.Idx) :
    Host.reduceAdd (F := Ideal) a (constant (F := Ideal) S_ .f32 0x00000000#32) reducesTo_S2x512x1_S_d0_1_2 h_S_ i = ∑ j, a j := by
  simp only [Host.reduceAdd, Ideal.hostReduceAdd_def]
  refine (Ideal.hostReduceAdd_total reducesTo_S2x512x1_S_d0_1_2 (fun b => b.elim0) a _ i).trans ?_
  show Ideal.ofBits .f32 0x00000000#32 + _ = _
  rw [Ideal.ofBits_zero_f32, zero_add]

/-- The operations after the region, as one function of the two result arrays: the first total over the second. -/
def tail (a b : S2x512x1.Idx → EReal) : S_.Idx → EReal :=
  Host.divf (Host.reduceAdd (F := Ideal) a (constant (F := Ideal) S_ .f32 0x00000000#32) reducesTo_S2x512x1_S_d0_1_2 h_S_)
    (Host.reduceAdd (F := Ideal) b (constant (F := Ideal) S_ .f32 0x00000000#32) reducesTo_S2x512x1_S_d0_1_2 h_S_)

theorem tail_apply (a b : S2x512x1.Idx → EReal) (i : S_.Idx) :
    tail a b i = Ideal.div ((∑ n : Fin 512, a (ix3 (0 : Fin 2) n (0 : Fin 1))) + ∑ n : Fin 512, a (ix3 (1 : Fin 2) n (0 : Fin 1)))
      ((∑ n : Fin 512, b (ix3 (0 : Fin 2) n (0 : Fin 1))) + ∑ n : Fin 512, b (ix3 (1 : Fin 2) n (0 : Fin 1))) := by
  show FloatOps.hostDivf (Host.reduceAdd (F := Ideal) a _ _ _ i) (Host.reduceAdd (F := Ideal) b _ _ _ i) = _
  rw [total_apply, total_apply, sum_sides a, sum_sides b]
  rfl

variable (m : (ℓ : Loc nD τ sig) → Buf (Elt Ideal) ℓ)

/-- Entry (o, n, 0) of the function of means of the stacked operands is the mean of row n of side o of the arguments. -/
theorem mean_entry (c : Dev nD) (o : Fin 2) (n : Fin 512) :
    meanArr (V m c main_v9) (V m c main_v13) (V m c main_v17) (ix3 o n (0 : Fin 1))
      = Cert.Spec.mean (m (c, Proc.tc.devRef main_arg0)) (m (c, Proc.tc.devRef main_arg1)) o n := by
  show rowMean (fun k : Fin 512 => (V m c main_v9 : S2x512x512.Idx → EReal) (ix3 o n k))
      (fun k : Fin 512 => (V m c main_v13 : S2x512x512.Idx → EReal) (ix3 o n k))
      (fun k : Fin 512 => (V m c main_v17 : S2x512x512.Idx → EReal) (ix3 o n k)) = _
  rw [HostValue.scores_row, HostValue.pos_row, HostValue.neg_row]
  rfl

/-- Entry (o, n, 0) of the function of validity values is the validity of row n of side o of the labels. -/
theorem valid_entry (c : Dev nD) (o : Fin 2) (n : Fin 512) :
    validArr (V m c main_v13) (V m c main_v17) (ix3 o n (0 : Fin 1))
      = Cert.Spec.valid (m (c, Proc.tc.devRef main_arg1)) o n := by
  show rowValid (fun k : Fin 512 => (V m c main_v13 : S2x512x512.Idx → EReal) (ix3 o n k))
      (fun k : Fin 512 => (V m c main_v17 : S2x512x512.Idx → EReal) (ix3 o n k)) = _
  rw [HostValue.pos_row, HostValue.neg_row]
  rfl

/-- The tail of the two result functions is the loss of the arguments. -/
theorem tail_loss (c : Dev nD) (i : S_.Idx) :
    tail (meanArr (V m c main_v9) (V m c main_v13) (V m c main_v17)) (validArr (V m c main_v13) (V m c main_v17)) i
      = Cert.Spec.loss (m (c, Proc.tc.devRef main_arg0)) (m (c, Proc.tc.devRef main_arg1)) := by
  rw [tail_apply]
  exact congrArg₂ Ideal.div
    (congrArg₂ (· + ·) (Finset.sum_congr rfl fun n _ => mean_entry m c 0 n) (Finset.sum_congr rfl fun n _ => mean_entry m c 1 n))
    (congrArg₂ (· + ·) (Finset.sum_congr rfl fun n _ => valid_entry m c 0 n) (Finset.sum_congr rfl fun n _ => valid_entry m c 1 n))

/-- THE RESULT BUFFER after the whole program: the loss of the argument arrays, at its one index. -/
theorem result_value (hmean : MeanBlock) (hvalid : ValidBlock) (c : Dev nD) :
    Pipeline.afterTail₀ cfgs (dats m) 0 (V0 m) [hostOps1] c main_v21
      = fun _ => Cert.Spec.loss (m (c, Proc.tc.devRef main_arg0)) (m (c, Proc.tc.devRef main_arg1)) := by
  unfold Pipeline.afterTail₀
  show StableHlo.after hostOps1 _ (Proc.devRef .tc main_v21) = _
  after_results
  show tail (Pipeline.withArrays (cfgs 0).spec c (V0 m c) (fun w => (dats m 0 c).arrAt w (cfgs 0).N) (Proc.tc.devRef main_v18_0))
      (Pipeline.withArrays (cfgs 0).spec c (V0 m c) (fun w => (dats m 0 c).arrAt w (cfgs 0).N) (Proc.tc.devRef main_v18_1)) = _
  have h3 := (Pipeline.withArrays_arr spec0 launch0.win.arr_inj c (V0 m c) (fun w => (dats m 0 c).arrAt w (cfgs 0).N) 3).trans
    (final_mean m hmean c)
  have h4 := (Pipeline.withArrays_arr spec0 launch0.win.arr_inj c (V0 m c) (fun w => (dats m 0 c).arrAt w (cfgs 0).N) 4).trans
    (final_valid m hvalid c)
  funext i
  exact (congrFun (congr (congrArg tail h3) h4) i).trans (tail_loss m c i)

/-- THE KERNEL'S RUN: every weakly fair execution terminates with the result buffer at the loss of the argument arrays
    and the arguments unchanged. -/
theorem run (hmean : MeanBlock) (hvalid : ValidBlock) (ρ : Dev nD → PrngReg) :
    θ_run defs (onTc (τ := τ) (main (F := Ideal))) ⟨m, fun _ => 0, ρ⟩ fun r => ∀ c : Dev nD,
      r.2.mem ((c.tc : Thread nD τ).loc main_v21)
          = (fun _ => Cert.Spec.loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v21 (Pipeline.mem_restRefs_of main_v21 (by decide) (by decide))).trans (result_value m hmean hvalid c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.TailValue

end
-- ==== Proof.LibKeepdims.lean ====
/-
  Layout operations of a `sum(..., keepdims=True)` read at an index written by coordinates.

  A row sum kept as a column is a vector of extent `a` cast to shape `[a, 1]`; a column used against a matrix is
  `[a, 1]` broadcast to `[a, b]`; a total kept as a `[1, 1]` block is a vector of extent `1` cast to `[1, 1]`.
  Each reads its operand at the evident coordinate: the cast keeps the row-major position, the broadcast repeats the
  one column.
-/
import Idealize.ShloMosaic.Lib.Pipeline.Value
import Idealize.ShloMosaic.Lib.ValueIdx

namespace Cert.LibKeepdims

open Idealize.ShloMosaic Idealize.ShloMosaic.ValueIdx

variable {α : Type}

/-- A vector of extent `a` cast to the column shape `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, q)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector of extent `1` cast to the block shape `[1, 1]` reads its one element, wherever it is read. -/
theorem shapeCast_1_11_apply (x : (⟨1, ![1]⟩ : Shape).Idx → α) (h : (⟨1, ![1]⟩ : Shape).ShapeCasts ⟨2, ![1, 1]⟩)
    (y : (⟨2, ![1, 1]⟩ : Shape).Idx) : shapeCast ⟨2, ![1, 1]⟩ x h y = x (ix1 (0 : Fin 1)) :=
  shapeCast_apply x h _ _ (by
    have h0 : (y 0).val < 1 := idx2_lt0 y
    have h1 : (y 1).val < 1 := idx2_lt1 y
    rw [Shape.rowMajor_val_two, Shape.rowMajor_val_one]
    show (0 : ℕ) = (y 0).val * 1 + (y 1).val
    omega)

/-- The `[1, 1]` block has one index. -/
theorem idx11_eq (y y' : (⟨2, ![1, 1]⟩ : Shape).Idx) : y = y' := by
  funext d
  apply Fin.ext
  match d with
  | ⟨0, _⟩ => show (y 0).val = (y' 0).val; have := idx2_lt0 y; have := idx2_lt0 y'; omega
  | ⟨1, _⟩ => show (y 1).val = (y' 1).val; have := idx2_lt1 y; have := idx2_lt1 y'; omega

end Cert.LibKeepdims
-- ==== Proof.LibLayout3.lean ====
/-
  Casts and broadcasts between a matrix and a rank-3 array with a unit axis, read at an index written by coordinates.

  A matrix [a, b] viewed as [a, 1, b] or as [a, b, 1] keeps each entry at the same row-major position, so the entry at
  (n, 0, j), or at (n, i, 0), is the matrix's entry at (n, j), or at (n, i); dropping a trailing unit axis reads the same way
  back. Broadcasting [a, 1, c] or [a, b, 1] to [a, b, c] repeats the array along the unit axis: the entry at (n, i, j) is the
  operand's at (n, 0, j), or at (n, i, 0). These are the forms a table of all pairs of a row's entries is built from.
-/
import Idealize.ShloMosaic.Lib.Pipeline.Value
import Idealize.ShloMosaic.Lib.ValueIdx

namespace Cert.LibLayout3

open Idealize.ShloMosaic Idealize.ShloMosaic.ValueIdx

variable {α : Type}

/-- An `[a, b]` array cast to `[a, 1, b]` reads, at `(n, u, j)`, the operand at `(n, j)`. -/
theorem shapeCast_ab_a1b_apply {a b : ℕ} (x : (⟨2, ![a, b]⟩ : Shape).Idx → α)
    (h : (⟨2, ![a, b]⟩ : Shape).ShapeCasts ⟨3, ![a, 1, b]⟩) (n : Fin a) (u : Fin 1) (j : Fin b) :
    shapeCast ⟨3, ![a, 1, b]⟩ x h (ix3 n u j) = x (ix2 n j) :=
  shapeCast_apply x h _ _ (by
    have hu : u.val = 0 := by omega
    rw [Shape.rowMajor_val_three, Shape.rowMajor_val_two]
    show n.val * b + j.val = (n.val * 1 + u.val) * b + j.val
    rw [hu, Nat.mul_one, Nat.add_zero])

/-- An `[a, b]` array cast to `[a, b, 1]` reads, at `(n, i, u)`, the operand at `(n, i)`. -/
theorem shapeCast_ab_ab1_apply {a b : ℕ} (x : (⟨2, ![a, b]⟩ : Shape).Idx → α)
    (h : (⟨2, ![a, b]⟩ : Shape).ShapeCasts ⟨3, ![a, b, 1]⟩) (n : Fin a) (i : Fin b) (u : Fin 1) :
    shapeCast ⟨3, ![a, b, 1]⟩ x h (ix3 n i u) = x (ix2 n i) :=
  shapeCast_apply x h _ _ (by
    have hu : u.val = 0 := by omega
    rw [Shape.rowMajor_val_three, Shape.rowMajor_val_two]
    show n.val * b + i.val = (n.val * b + i.val) * 1 + u.val
    rw [hu, Nat.mul_one, Nat.add_zero])

/-- An `[a, b, 1]` array cast to `[a, b]` reads, at `(n, i)`, the operand at `(n, i, 0)`. -/
theorem shapeCast_ab1_ab_apply {a b : ℕ} (x : (⟨3, ![a, b, 1]⟩ : Shape).Idx → α)
    (h : (⟨3, ![a, b, 1]⟩ : Shape).ShapeCasts ⟨2, ![a, b]⟩) (n : Fin a) (i : Fin b) :
    shapeCast ⟨2, ![a, b]⟩ x h (ix2 n i) = x (ix3 n i (0 : Fin 1)) :=
  shapeCast_apply x h _ _ (by
    rw [Shape.rowMajor_val_three, Shape.rowMajor_val_two]
    show (n.val * b + i.val) * 1 + 0 = n.val * b + i.val
    rw [Nat.mul_one, Nat.add_zero])

/-- An `[a, 1, c]` array broadcast to `[a, b, c]` reads, at `(n, i, j)`, the operand at `(n, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (n : Fin a) (i : Fin b) (j : Fin c) :
    broadcastTo ⟨3, ![a, b, c]⟩ v h (ix3 n i j) = v (ix3 n (0 : Fin 1) j) := by
  refine broadcastTo_apply v h (ix3 n i j) (ix3 n (0 : Fin 1) j) fun ax => ?_
  match ax with
  | ⟨0, _⟩ =>
    show n.val = if a = 1 then 0 else n.val
    split
    · have := n.isLt; omega
    · rfl
  | ⟨1, _⟩ => rfl
  | ⟨2, _⟩ =>
    show j.val = if c = 1 then 0 else j.val
    split
    · have := j.isLt; omega
    · rfl

/-- An `[a, b, 1]` array broadcast to `[a, b, c]` reads, at `(n, i, j)`, the operand at `(n, i, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (n : Fin a) (i : Fin b) (j : Fin c) :
    broadcastTo ⟨3, ![a, b, c]⟩ v h (ix3 n i j) = v (ix3 n i (0 : Fin 1)) := by
  refine broadcastTo_apply v h (ix3 n i j) (ix3 n i (0 : Fin 1)) fun ax => ?_
  match ax with
  | ⟨0, _⟩ =>
    show n.val = if a = 1 then 0 else n.val
    split
    · have := n.isLt; omega
    · rfl
  | ⟨1, _⟩ =>
    show i.val = if b = 1 then 0 else i.val
    split
    · have := i.isLt; omega
    · rfl
  | ⟨2, _⟩ => rfl

end Cert.LibLayout3
-- ==== Proof.BodyValue.lean ====
/-
  What one block of sixteen rows leaves in the two output blocks: the mean hinge of each row over its (positive,
  negative) pairs, and whether the row has a pair.

  The block computes, for each of its sixteen rows, the hinge of every pair of entries as a 512 × 512 table, contracts
  the table against the mask of negative entries, weights the result by the mask of positive entries and sums; it also
  sums the two masks and multiplies the sums for the number of pairs. Read at one row, each array operation is the
  evident operation on that row's entries, and the whole is the row mathematics of RowMath.
-/
import proofs.«167897_j86543591015116_2_alg».proof.Proof.Gen.KernelIdeal.Frame
import proofs.«167897_j86543591015116_2_alg».proof.Proof.RowMath
import proofs.«167897_j86543591015116_2_alg».proof.Proof.LibKeepdims
import proofs.«167897_j86543591015116_2_alg».proof.Proof.LibLayout3
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Idealize.ShloMosaic Idealize.ShloMosaic.ValueIdx Cert.KernelIdeal Cert.KernelIdeal.Gen Cert.LibLayout3

/-! ## The two summing operations read at an index -/

section Sums

/-- The sum along a row of a `[16, 512]` table, read at row `r`, is the sum of the row's 512 entries. -/
theorem rowSum_apply (v : FVec Ideal S16x512 .f32) (h : S16x512.Reduces [1] S16) (hφ : FKind.Formats .f32)
    (hacc : (0x00000000#32 : BitVec 32) = FKind.add.neutral .f32 hφ) (r : Fin 16) :
    multiReduction (F := Ideal) .add [1] S16 v 0x00000000#32 h hφ hacc (ix1 r) = ∑ k : Fin 512, v (ix2 r k) := by
  refine (Ideal.multiReduction_add_single v _ h hφ hacc (ix1 r)).trans ?_
  refine Finset.sum_congr rfl fun k _ => congrArg v ?_
  funext a
  apply Fin.ext
  match a with
  | ⟨0, _⟩ => rfl
  | ⟨1, _⟩ => rfl

/-- The dimension numbers of the batched contraction: batch axis 0 of both operands, the left operand's last axis
    against the right operand's middle axis. -/
abbrev D : DotDims S16x512x512 S16x512x1 S16x512x1 := dot_S16x512x512_S16x512x1_S16x512x1_2_1_1_2_0_0

theorem lhs_0 (j : S16x512x1.Idx) (k : D.contr.Idx) : (D.lhsIdx j k 0 : ℕ) = j 0 := by
  simp [DotDims.lhsIdx, D, dot_S16x512x512_S16x512x1_S16x512x1_2_1_1_2_0_0]; rfl
theorem lhs_1 (j : S16x512x1.Idx) (k : D.contr.Idx) : (D.lhsIdx j k 1 : ℕ) = j 1 := by
  simp [DotDims.lhsIdx, D, dot_S16x512x512_S16x512x1_S16x512x1_2_1_1_2_0_0]; rfl
theorem lhs_2 (j : S16x512x1.Idx) (k : D.contr.Idx) : (D.lhsIdx j k 2 : ℕ) = k ⟨0, by decide⟩ := by
  simp [DotDims.lhsIdx, D, dot_S16x512x512_S16x512x1_S16x512x1_2_1_1_2_0_0]; rfl
theorem rhs_0 (j : S16x512x1.Idx) (k : D.contr.Idx) : (D.rhsIdx j k 0 : ℕ) = j 0 := by
  simp [DotDims.rhsIdx, D, dot_S16x512x512_S16x512x1_S16x512x1_2_1_1_2_0_0]; rfl
theorem rhs_1 (j : S16x512x1.Idx) (k : D.contr.Idx) : (D.rhsIdx j k 1 : ℕ) = k ⟨0, by decide⟩ := by
  simp [DotDims.rhsIdx, D, dot_S16x512x512_S16x512x1_S16x512x1_2_1_1_2_0_0]; rfl

/-- The batched contraction into the zero table, read at `(n, i, u)`: the sum over `k` of the left operand at
    `(n, i, k)` times the right operand at `(n, k, 0)`. -/
theorem matmul_row_apply (lhs : FVec Ideal S16x512x512 .f32) (rhs : FVec Ideal S16x512x1 .f32)
    (n : Fin 16) (i : Fin 512) (u : Fin 1) :
    matmul D (some .fp32) lhs rhs (constant (F := Ideal) S16x512x1 .f32 0x00000000#32) (ix3 n i u)
      = ∑ k : Fin 512, lhs (ix3 n i k) * rhs (ix3 n k (0 : Fin 1)) := by
  refine (Ideal.matmul_constant_zero_apply D (some .fp32) lhs rhs (ix3 n i u)).trans ?_
  rw [← Equiv.sum_comp (contrEquiv1 D 512 rfl rfl).symm]
  refine Finset.sum_congr rfl fun k _ => ?_
  have hl : D.lhsIdx (ix3 n i u) ((contrEquiv1 D 512 rfl rfl).symm k) = ix3 n i k := by
    funext a
    apply Fin.ext
    match a with
    | ⟨0, _⟩ => exact lhs_0 _ _
    | ⟨1, _⟩ => exact lhs_1 _ _
    | ⟨2, _⟩ => exact (lhs_2 _ _).trans (contrEquiv1_symm_val D 512 rfl rfl k)
  have hr : D.rhsIdx (ix3 n i u) ((contrEquiv1 D 512 rfl rfl).symm k) = ix3 n k (0 : Fin 1) := by
    funext a
    apply Fin.ext
    match a with
    | ⟨0, _⟩ => exact rhs_0 _ _
    | ⟨1, _⟩ => exact (rhs_1 _ _).trans (contrEquiv1_symm_val D 512 rfl rfl k)
    | ⟨2, h2⟩ =>
      have h : (D.rhsIdx (ix3 n i u) ((contrEquiv1 D 512 rfl rfl).symm k) ⟨2, h2⟩).val < 1 :=
        (D.rhsIdx (ix3 n i u) ((contrEquiv1 D 512 rfl rfl).symm k) ⟨2, h2⟩).isLt
      show (D.rhsIdx (ix3 n i u) ((contrEquiv1 D 512 rfl rfl).symm k) ⟨2, h2⟩).val = 0
      omega
  rw [hl, hr]

end Sums

/-! ## The payloads read at a row -/

section Payloads
open Cert.RowMath

/-- A row sum kept as a column, read at `(r, u)`: the sum of row `r`. -/
theorem rowSumCol_apply (v : FVec Ideal S16x512 .f32) (h : S16x512.Reduces [1] S16) (hφ : FKind.Formats .f32)
    (hacc : (0x00000000#32 : BitVec 32) = FKind.add.neutral .f32 hφ) (hc : S16.ShapeCasts S16x1) (r : Fin 16) (u : Fin 1) :
    shapeCast S16x1 (multiReduction (F := Ideal) .add [1] S16 v 0x00000000#32 h hφ hacc) hc (ix2 r u)
      = ∑ k : Fin 512, v (ix2 r k) :=
  (Cert.LibKeepdims.shapeCast_a_a1_apply _ hc r u).trans (rowSum_apply v h hφ hacc r)

/-- A block with its leading unit axis dropped, read at `(r, k)`: the block at `(0, r, k)`. -/
theorem pay3_apply (v : Vec Ideal S1x16x512 .f32) (r : Fin 16) (k : Fin 512) :
    k0_pay3 (F := Ideal) v (ix2 r k) = v (ix3 (0 : Fin 1) r k) :=
  shapeCast_1ab_ab_apply v _ r k
theorem pay4_apply (v : Vec Ideal S1x16x512 .f32) (r : Fin 16) (k : Fin 512) :
    k0_pay4 (F := Ideal) v (ix2 r k) = v (ix3 (0 : Fin 1) r k) :=
  shapeCast_1ab_ab_apply v _ r k

/-- The number of pairs of row `r`: the product of the two masks' row sums. -/
theorem pay5_apply (x1 x2 : Vec Ideal S1x16x512 .f32) (r : Fin 16) (u : Fin 1) :
    k0_pay5 (F := Ideal) x1 x2 (ix2 r u)
      = rowCnt (fun k : Fin 512 => x1 (ix3 (0 : Fin 1) r k)) (fun k => x2 (ix3 (0 : Fin 1) r k)) := by
  unfold k0_pay5 rowCnt
  refine (mulf_apply _ _ _).trans ?_
  refine congrArg₂ (· * ·) ?_ ?_
  · refine (rowSumCol_apply _ _ _ _ _ r u).trans ?_
    exact Finset.sum_congr rfl fun k _ => pay3_apply x1 r k
  · refine (rowSumCol_apply _ _ _ _ _ r u).trans ?_
    exact Finset.sum_congr rfl fun k _ => pay4_apply x2 r k

/-- Whether row `r` has a pair. -/
theorem pay7_apply (x1 x2 : Vec Ideal S1x16x512 .f32) (r : Fin 16) (u : Fin 1) :
    k0_pay7 (F := Ideal) x1 x2 (ix2 r u)
      = positive (rowCnt (fun k : Fin 512 => x1 (ix3 (0 : Fin 1) r k)) (fun k => x2 (ix3 (0 : Fin 1) r k))) := by
  unfold k0_pay7 positive
  show Ideal.cmp .ogt (k0_pay5 (F := Ideal) x1 x2 (ix2 r u)) (Ideal.ofBits .f32 0x00000000#32) = Ideal.cmp .ogt _ 0
  rw [pay5_apply, Ideal.ofBits_zero_f32]

/-- The same as a number, 0 or 1. -/
theorem pay6_apply (x1 x2 : Vec Ideal S1x16x512 .f32) (r : Fin 16) (u : Fin 1) :
    k0_pay6 (F := Ideal) x1 x2 (ix2 r u)
      = validOf (rowCnt (fun k : Fin 512 => x1 (ix3 (0 : Fin 1) r k)) (fun k => x2 (ix3 (0 : Fin 1) r k))) := by
  unfold k0_pay6 validOf positive
  show (((((Ideal.cmp .ogt (k0_pay5 (F := Ideal) x1 x2 (ix2 r u)) (Ideal.ofBits .f32 0x00000000#32)).setWidth 32).toInt : ℝ) : EReal))
    = (((((Ideal.cmp .ogt _ 0).setWidth 32).toInt : ℝ) : EReal))
  rw [pay5_apply, Ideal.ofBits_zero_f32]

/-- The hinge table of a block of scores, read at `(r, i, j)`: row `r`'s score at `j` plus the margin, less its score at
    `i`, or 0. -/
theorem hinge_apply (x0 : Vec Ideal S1x16x512 .f32)
    (h1 : S1x16x512.ShapeCasts S16x512) (h2 : S16x512.ShapeCasts S16x1x512) (h3 : S16x1x512.Broadcasts S16x512x512)
    (h4 : S16x512.ShapeCasts S16x512x1) (h5 : S16x512x1.Broadcasts S16x512x512) (r : Fin 16) (i j : Fin 512) :
    maximumf (F := Ideal)
        (subf
          (broadcastTo S16x512x512
            (shapeCast S16x1x512
              (addf (shapeCast S16x512 x0 h1) (broadcast S16x512 (Scalar.ofBits (F := Ideal) .f32 0x3E4CCCCD#32))) h2) h3)
          (broadcastTo S16x512x512 (shapeCast S16x512x1 (shapeCast S16x512 x0 h1) h4) h5))
        (broadcast S16x512x512 (Scalar.ofBits (F := Ideal) .f32 0x00000000#32)) (ix3 r i j)
      = hinge (fun k : Fin 512 => x0 (ix3 (0 : Fin 1) r k)) i j := by
  refine (maximumf_apply _ _ _).trans ?_
  unfold hinge margin
  refine congrArg₂ max ?_ Ideal.ofBits_zero_f32
  refine (subf_apply _ _ _).trans ?_
  refine congrArg₂ (· - ·) ?_ ?_
  · refine (broadcastTo_a1c_abc_apply _ h3 r i j).trans ?_
    refine (shapeCast_ab_a1b_apply _ h2 r 0 j).trans ?_
    refine (addf_apply _ _ _).trans ?_
    refine congrArg₂ (· + ·) ?_ rfl
    exact shapeCast_1ab_ab_apply x0 h1 r j
  · refine (broadcastTo_ab1_abc_apply _ h5 r i j).trans ?_
    refine (shapeCast_ab_ab1_apply _ h4 r i 0).trans ?_
    exact shapeCast_1ab_ab_apply x0 h1 r i

/-- Row `r`'s total over its count, the count replaced by 1 where it is not positive. -/
theorem pay8_apply (x0 x1 x2 : Vec Ideal S1x16x512 .f32) (r : Fin 16) (u : Fin 1) :
    k0_pay8 (F := Ideal) x0 x1 x2 (ix2 r u)
      = Ideal.div
          (rowTot (fun k : Fin 512 => x0 (ix3 (0 : Fin 1) r k)) (fun k => x1 (ix3 (0 : Fin 1) r k))
            (fun k => x2 (ix3 (0 : Fin 1) r k)))
          (Scalar.select
            (positive (rowCnt (fun k : Fin 512 => x1 (ix3 (0 : Fin 1) r k)) (fun k => x2 (ix3 (0 : Fin 1) r k))))
            (rowCnt (fun k : Fin 512 => x1 (ix3 (0 : Fin 1) r k)) (fun k => x2 (ix3 (0 : Fin 1) r k))) one) := by
  unfold k0_pay8
  refine (divf_apply _ _ _).trans ?_
  refine congrArg₂ Ideal.div ?_ ?_
  · refine (rowSumCol_apply _ _ _ _ _ r u).trans ?_
    unfold rowTot
    refine Finset.sum_congr rfl fun i _ => ?_
    refine (mulf_apply _ _ _).trans ?_
    refine congrArg₂ (· * ·) ?_ (pay3_apply x1 r i)
    refine (shapeCast_ab1_ab_apply _ _ r i).trans ?_
    refine (matmul_row_apply _ _ r i 0).trans ?_
    refine Finset.sum_congr rfl fun j _ => ?_
    refine congrArg₂ (· * ·) (hinge_apply x0 _ _ _ _ _ r i j) ?_
    refine (shapeCast_ab_ab1_apply _ _ r j 0).trans ?_
    exact pay4_apply x2 r j
  · refine (select_apply _ _ _ _).trans ?_
    unfold one
    show Scalar.select (Ideal.cmp .ogt (k0_pay5 (F := Ideal) x1 x2 (ix2 r u)) (Ideal.ofBits .f32 0x00000000#32))
        (k0_pay5 (F := Ideal) x1 x2 (ix2 r u)) (Ideal.ofBits .f32 0x3F800000#32) = _
    rw [pay5_apply, Ideal.ofBits_zero_f32]
    rfl

end Payloads

/-! ## The two output blocks -/

section Blocks
open Cert.RowMath

/-- The whole-block rectangle's offsets are all zero. -/
theorem offsets_zero : (![0, 0, 0] : Fin 3 → Nat) = fun _ => 0 := funext fun a => by fin_cases a <;> rfl

/-- THE MEAN BLOCK: at row `r` it holds the mean hinge of that row of the three input blocks. -/
theorem mean_block (x0 x1 x2 : Vec Ideal S1x16x512 .f32) (u : Fin 1) (r : Fin 16) (u' : Fin 1) :
    out0_3 (F := Ideal) x0 x1 x2 (ix3 u r u')
      = Cert.RowMath.rowMean (fun k : Fin 512 => x0 (ix3 (0 : Fin 1) r k)) (fun k => x1 (ix3 (0 : Fin 1) r k))
          (fun k => x2 (ix3 (0 : Fin 1) r k)) := by
  unfold out0_3
  rw [View.canon_unit_zero offsets_zero]
  simp only [View.ld_unit_zero (S := S1x16x512) offsets_zero]
  unfold k0_pay1
  refine (shapeCast_ab_1ab_apply _ _ u r u').trans ?_
  refine (select_apply _ _ _ _).trans ?_
  have e9 : k0_pay9 (F := Ideal) (ix2 r u') = 0 := Ideal.ofBits_zero_f32
  rw [pay7_apply, pay8_apply, e9]
  rfl

/-- THE VALIDITY BLOCK: at row `r` it holds 1 where that row has a pair, else 0. -/
theorem valid_block (x0 x1 x2 : Vec Ideal S1x16x512 .f32) (u : Fin 1) (r : Fin 16) (u' : Fin 1) :
    out0_4 (F := Ideal) x0 x1 x2 (ix3 u r u')
      = Cert.RowMath.rowValid (fun k : Fin 512 => x1 (ix3 (0 : Fin 1) r k)) (fun k => x2 (ix3 (0 : Fin 1) r k)) := by
  unfold out0_4
  rw [View.canon_unit_zero offsets_zero]
  simp only [View.ld_unit_zero (S := S1x16x512) offsets_zero]
  unfold k0_pay2
  refine (shapeCast_ab_1ab_apply _ _ u r u').trans ?_
  exact pay6_apply x1 x2 r u'

end Blocks

end Cert.KernelIdeal.BodyValue

end
-- ==== Proof.LibIdxSums.lean ====
/-
  Sums over the index sets of rank-1 and rank-3 arrays, by coordinates.

  An index of a rank-1 array is its one coordinate, an index of a rank-3 array the triple of its coordinates; so a sum
  over all indices of such an array is the sum over the coordinate, or the triple sum over the three coordinates (the
  rank-2 case is the library's `sum_idx2`).
-/
import Idealize.ShloMosaic.Lib.ValueIdx

namespace Cert.LibIdxSums

open Idealize.ShloMosaic Idealize.ShloMosaic.ValueIdx

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibIdxSums
-- ==== Proof.LibCount.lean ====
/-
  Counting one-bit answers with 32-bit words.

  A program that counts how many of some conditions hold may widen each one-bit answer to a 32-bit word, add the words
  (addition of words wraps at 2³²) and convert the sum to a number afterwards. As long as there are fewer than 2³¹ answers
  the sum never wraps and is not read as negative, so the converted count is the sum of the answers each converted on
  its own — a sum of zeros and ones on the extended reals.
-/
import Idealize.ShloMosaic.PureOps.Ideal
import Idealize.ShloMosaic.PureOps.Reduce

noncomputable section

namespace Cert.LibCount

open Idealize.ShloMosaic

/-- A bit widened to a word is 0 or 1 as a natural number. -/
theorem toNat_setWidth_bit_le (b : BitVec 1) : (b.setWidth 32).toNat ≤ 1 := by
  rw [BitVec.toNat_setWidth]
  have h : b.toNat < 2 := b.isLt
  exact (Nat.mod_le _ _).trans (by omega)

/-- A word-sum of words that are each 0 or 1, over fewer than 2³² of them, is their sum as natural numbers:
    it does not wrap. -/
theorem toNat_fold_addi {ι : Type} [DecidableEq ι] (w : ι → BitVec 32) (hw : ∀ n, (w n).toNat ≤ 1) (S : Finset ι) :
    S.card < 2 ^ 32 → (S.fold IntOp.addi 0#32 w).toNat = ∑ n ∈ S, (w n).toNat ∧ ∑ n ∈ S, (w n).toNat ≤ S.card := by
  induction S using Finset.induction_on with
  | empty => intro _; exact ⟨rfl, le_refl _⟩
  | insert a S ha ih =>
    intro hc
    rw [Finset.card_insert_of_notMem ha] at hc
    obtain ⟨e, b⟩ := ih (by omega)
    rw [Finset.fold_insert ha, Finset.sum_insert ha, Finset.card_insert_of_notMem ha]
    have h1 := hw a
    refine ⟨?_, by omega⟩
    show (w a + S.fold IntOp.addi 0#32 w).toNat = _
    rw [BitVec.toNat_add, e]
    exact Nat.mod_eq_of_lt (by omega)

/-- A finite sum of real numbers, read on the extended reals, is the sum of the readings. -/
theorem coe_sum {ι : Type} (S : Finset ι) (f : ι → ℝ) : ((∑ n ∈ S, f n : ℝ) : EReal) = ∑ n ∈ S, (f n : EReal) := by
  classical
  induction S using Finset.induction_on with
  | empty => simp
  | insert a S ha ih => rw [Finset.sum_insert ha, Finset.sum_insert ha, EReal.coe_add, ih]

/-- THE COUNT. The 32-bit sum of up to 2³¹ − 1 one-bit answers, each widened to a word, read as a signed integer, is
    the sum of the answers each read that way. -/
theorem count_eq_sum {ι : Type} [Fintype ι] [DecidableEq ι] (b : ι → BitVec 1) (hcard : Fintype.card ι < 2 ^ 31) :
    ((((Finset.univ.fold IntOp.addi 0#32 fun n => (b n).setWidth 32).toInt : ℤ) : ℝ) : EReal)
      = ∑ n, (((((b n).setWidth 32).toInt : ℤ) : ℝ) : EReal) := by
  have hc : (Finset.univ : Finset ι).card < 2 ^ 32 := by rw [Finset.card_univ]; omega
  obtain ⟨e, bd⟩ := toNat_fold_addi (fun n => (b n).setWidth 32) (fun n => toNat_setWidth_bit_le (b n)) Finset.univ hc
  rw [Finset.card_univ] at bd
  have hfold : (Finset.univ.fold IntOp.addi 0#32 fun n => (b n).setWidth 32).toInt
      = ((∑ n, ((b n).setWidth 32).toNat : ℕ) : ℤ) := by
    rw [BitVec.toInt_eq_toNat_of_lt (by rw [e]; omega), e]
  have hterm : ∀ n, ((b n).setWidth 32).toInt = ((((b n).setWidth 32).toNat : ℕ) : ℤ) := fun n =>
    BitVec.toInt_eq_toNat_of_lt (by have := toNat_setWidth_bit_le (b n); omega)
  rw [hfold, ← coe_sum]
  congr 1
  simp only [hterm, Nat.cast_sum, Int.cast_sum, Int.cast_natCast]

end Cert.LibCount

end
-- ==== Proof.ReferenceValue.lean ====
/-
  The reference program's result is the loss.

  The reference computes the bidirectional pairwise ranking loss of a 512 × 512 matrix of scores and a matrix of labels
  one array operation at a time. Read at an index, side by side with the loss as one function of the two arrays:

  * the positive and negative masks are the one-bit answers of the label comparisons read as numbers; side 1 reads the
    transposed matrices, so its entry (n, k) is the matrix's entry (k, n);
  * the hinge at (n, i, j) is max (margin + s j − s i) 0 for the row s of side's matrix, and the pair weight is p i · q j;
  * a row's total is the sum of hinge · weight over BOTH pair axes at once: a sum over the last two axes of a cube, which
    at n is the double sum over the slab n, because an index (m, a, b) of the cube drops to m; since every p i is 0 or 1,
    that sum is the row's total summed over j first (the regrouping law);
  * a row's pair count is (∑ p) · (∑ q), its validity bit is "count > 0", its mean is total / count where valid and 0
    elsewhere;
  * the number of valid rows is the 32-bit sum of the validity bits widened to words, converted to a float afterwards: every
    index of a vector drops to the one index of a rank-0 result, so the sum runs over all 512 rows, and 512 ones do not
    wrap, so it is the sum of the bits as numbers;
  * the result is (sum of side 0's means + sum of side 1's means) / (side 0's count + side 1's count).

  Each 0 the program adds a sum to is the extended real 0.
-/
import proofs.«167897_j86543591015116_2_alg».proof.Proof.ReferenceReadPatched
import proofs.«167897_j86543591015116_2_alg».proof.Proof.Spec
import proofs.«167897_j86543591015116_2_alg».proof.Proof.LibIdxSums
import proofs.«167897_j86543591015116_2_alg».proof.Proof.LibCount
import Idealize.ShloMosaic.Lib.ValueIdx
import Idealize.ShloMosaic.PureOps.Ideal.Laws

noncomputable section

namespace Cert.ReferenceValue

open Idealize.ShloMosaic Idealize.ShloMosaic.ValueIdx Cert.ReferenceIdeal Cert.ReferenceIdeal.Gen Cert.ReferenceIdeal.ReadP
open Cert.RowMath Cert.Spec Cert.LibIdxSums

/-! ## A sum over the last two axes of a cube -/

/-- The sum of a `[512, 512, 512]` array over its last two axes, read at `n`: the initial value plus the double sum
    of the slab `n`. An index `(m, a, b)` drops to `m`, so the indices that drop to `n` are the slab `m = n`. -/
theorem hostReduceAdd_slab (h : (⟨3, ![512, 512, 512]⟩ : Shape).ReducesTo [1, 2] ⟨1, ![512]⟩)
    (x : (⟨3, ![512, 512, 512]⟩ : Shape).Idx → EReal) (init : EReal) (n : Fin 512) :
    Ideal.hostReduceAdd h x init (ix1 n) = init + ∑ a : Fin 512, ∑ b : Fin 512, x (ix3 n a b) := by
  have hd : ∀ (m a b : Fin 512), h.drop (ix3 m a b) = ix1 n ↔ m = n := by
    intro m a b
    have hv := Shape.ReducesTo.drop_apply_val_of_eq h (ix3 m a b) ⟨0, by decide⟩ ⟨0, by decide⟩
    constructor
    · intro e
      rw [e] at hv
      exact Fin.ext hv.symm
    · rintro rfl
      funext d
      match d with
      | ⟨0, _⟩ => exact Fin.ext hv
  unfold Ideal.hostReduceAdd
  refine congrArg (init + ·) ?_
  rw [Finset.sum_filter, sum_idx3]
  rw [Finset.sum_eq_single n]
  · refine Finset.sum_congr rfl fun a _ => Finset.sum_congr rfl fun b _ => ?_
    rw [if_pos ((hd n a b).2 rfl)]
  · intro m _ hm
    refine Finset.sum_eq_zero fun a _ => Finset.sum_eq_zero fun b _ => ?_
    rw [if_neg fun e => hm ((hd m a b).1 e)]
  · intro hn
    exact absurd (Finset.mem_univ n) hn

/-! ## A 32-bit count of one-bit answers along a vector, converted to a float -/

/-- The rank-1 index set of extent 512 has fewer than 2³¹ elements. -/
theorem card_idx512 : Fintype.card (⟨1, ![512]⟩ : Shape).Idx < 2 ^ 31 := by
  rw [Fintype.card_congr (idxEquiv1 (n := 512)), Fintype.card_fin]
  decide

/-- The 32-bit sum, from the zero word, of 512 one-bit answers each widened to a word, converted as a signed integer:
    every index of the vector drops to the one index of the rank-0 result, so the sum runs over all of them; 512 ones do
    not wrap, so it is the sum of the answers each converted that way. -/
theorem count_reduce (h : (⟨1, ![512]⟩ : Shape).ReducesTo [0] ⟨0, ![]⟩) (hu : 0 < (⟨0, ![]⟩ : Shape).numel)
    (b : (⟨1, ![512]⟩ : Shape).Idx → BitVec 1) (init : (⟨0, ![]⟩ : Shape).Idx → BitVec 32) (hinit : ∀ j, init j = 0#32)
    (j : (⟨0, ![]⟩ : Shape).Idx) :
    FloatOps.sitofp (F := Ideal) .f32 (Host.reduce IntOp.addi (fun i => (b i).setWidth 32) init h hu j)
      = ∑ n : Fin 512, (((((b (ix1 n)).setWidth 32).toInt : ℤ) : ℝ) : EReal) := by
  rw [Host.reduce_eq_fold, hinit, Finset.filter_true_of_mem (fun i _ => funext fun a => a.elim0)]
  show ((((Finset.univ.fold IntOp.addi 0#32 fun i => (b i).setWidth 32).toInt : ℤ) : ℝ) : EReal) = _
  rw [Cert.LibCount.count_eq_sum b card_idx512, sum_idx1]

/-! ## Side 0: the matrices as they are -/

/-- The positive mask of side 0 at `(n, k)`. -/
theorem pos0_at (x1 : (⟨S512x512, .i32⟩ : BufTy).Contents (Elt Ideal)) (n k : Fin 512) :
    val_main_v2 (F := Ideal) x1 (ix2 n k) = pRow x1 0 n k := by
  rw [val_main_v2_apply, val_main_v1_apply, val_main_v0_apply]
  rfl

/-- The negative mask of side 0 at `(n, k)`. -/
theorem neg0_at (x1 : (⟨S512x512, .i32⟩ : BufTy).Contents (Elt Ideal)) (n k : Fin 512) :
    val_main_v5 (F := Ideal) x1 (ix2 n k) = qRow x1 0 n k := by
  rw [val_main_v5_apply, val_main_v4_apply, val_main_v3_apply]
  rfl

/-- The hinge of side 0 at `(n, i, j)`. -/
theorem hinge0_at (x0 : (⟨S512x512, .f32⟩ : BufTy).Contents (Elt Ideal)) (n i j : Fin 512) :
    val_main_v13 (F := Ideal) x0 (ix3 n i j) = max (margin + sRow x0 0 n j - sRow x0 0 n i) 0 := by
  have e1 : idx_main_v6 (idx_main_v10 (ix3 n i j)) = ix2 n j :=
    funext fun a => by match a with | ⟨0, _⟩ => rfl | ⟨1, _⟩ => rfl
  have e2 : idx_main_v9 (idx_main_v11 (ix3 n i j)) = ix2 n i :=
    funext fun a => by match a with | ⟨0, _⟩ => rfl | ⟨1, _⟩ => rfl
  rw [val_main_v13_apply, val_main_v12_apply, val_main_v10_apply, val_main_v8_apply, val_main_v7_apply,
    val_main_v6_apply, val_main_v11_apply, val_main_v9_apply, val_main_call0_v0_apply, e1, e2]
  show max (margin + x0 (ix2 n j) - x0 (ix2 n i)) (Ideal.ofBits .f32 0x00000000#32) = _
  rw [Ideal.ofBits_zero_f32]
  rfl

/-- The pair weight of side 0 at `(n, i, j)`. -/
theorem weight0_at (x1 : (⟨S512x512, .i32⟩ : BufTy).Contents (Elt Ideal)) (n i j : Fin 512) :
    val_main_v18 (F := Ideal) x1 (ix3 n i j) = pRow x1 0 n i * qRow x1 0 n j := by
  have e1 : idx_main_v14 (idx_main_v16 (ix3 n i j)) = ix2 n i :=
    funext fun a => by match a with | ⟨0, _⟩ => rfl | ⟨1, _⟩ => rfl
  have e2 : idx_main_v15 (idx_main_v17 (ix3 n i j)) = ix2 n j :=
    funext fun a => by match a with | ⟨0, _⟩ => rfl | ⟨1, _⟩ => rfl
  rw [val_main_v18_apply, val_main_v16_apply, val_main_v14_apply, val_main_v17_apply, val_main_v15_apply, e1, e2,
    pos0_at, neg0_at]
  rfl

/-- The total of row `n` of side 0: the sum over all pairs, regrouped. -/
theorem tot0_at (x0 : (⟨S512x512, .f32⟩ : BufTy).Contents (Elt Ideal)) (x1 : (⟨S512x512, .i32⟩ : BufTy).Contents (Elt Ideal))
    (n : Fin 512) :
    val_main_v20 (F := Ideal) x0 x1 (ix1 n) = rowTot (sRow x0 0 n) (pRow x1 0 n) (qRow x1 0 n) := by
  unfold val_main_v20
  simp only [Host.reduceAdd, Ideal.hostReduceAdd_def]
  refine (hostReduceAdd_slab _ _ _ n).trans ?_
  rw [← total_regroup _ _ _ (pRow_zero_or_one x1 0 n)]
  show Ideal.ofBits .f32 0x00000000#32 + _ = _
  rw [Ideal.ofBits_zero_f32, zero_add]
  refine Finset.sum_congr rfl fun i _ => Finset.sum_congr rfl fun j _ => ?_
  rw [val_main_v19_apply, hinge0_at, weight0_at]
  rfl

/-- The pair count of row `n` of side 0. -/
theorem cnt0_at (x1 : (⟨S512x512, .i32⟩ : BufTy).Contents (Elt Ideal)) (n : Fin 512) :
    val_main_v23 (F := Ideal) x1 (ix1 n) = rowCnt (pRow x1 0 n) (qRow x1 0 n) := by
  have e1 : ∀ k : Fin 512, idx_main_v21 (ix1 n) k = ix2 n k := fun k =>
    funext fun a => by match a with | ⟨0, _⟩ => rfl | ⟨1, _⟩ => rfl
  have e2 : ∀ k : Fin 512, idx_main_v22 (ix1 n) k = ix2 n k := fun k =>
    funext fun a => by match a with | ⟨0, _⟩ => rfl | ⟨1, _⟩ => rfl
  rw [val_main_v23_apply, val_main_v21_apply, val_main_v22_apply]
  simp only [e1, e2, pos0_at, neg0_at]
  show (Ideal.ofBits .f32 0x00000000#32 + ∑ k, pRow x1 0 n k) * (Ideal.ofBits .f32 0x00000000#32 + ∑ k, qRow x1 0 n k) = _
  rw [Ideal.ofBits_zero_f32, zero_add, zero_add]
  rfl

/-- Whether row `n` of side 0 has a pair. -/
theorem bit0_at (x1 : (⟨S512x512, .i32⟩ : BufTy).Contents (Elt Ideal)) (n : Fin 512) :
    val_main_v25 (F := Ideal) x1 (ix1 n) = positive (rowCnt (pRow x1 0 n) (qRow x1 0 n)) := by
  rw [val_main_v25_apply, val_main_v24_apply, cnt0_at]
  show Ideal.cmp .ogt _ (Ideal.ofBits .f32 0x00000000#32) = _
  rw [Ideal.ofBits_zero_f32]
  rfl

/-- The mean of row `n` of side 0. -/
theorem mean0 (x0 : (⟨S512x512, .f32⟩ : BufTy).Contents (Elt Ideal)) (x1 : (⟨S512x512, .i32⟩ : BufTy).Contents (Elt Ideal))
    (n : Fin 512) : val_main_v28 (F := Ideal) x0 x1 (ix1 n) = Cert.Spec.mean x0 x1 0 n := by
  rw [val_main_v28_apply, val_main_v27_apply, val_main_v26_apply, val_main_call2_v1_apply, val_main_call1_v1_apply,
    bit0_at, tot0_at, cnt0_at]
  show Scalar.select _ (Ideal.div _ (Scalar.select _ _ one)) (Ideal.ofBits .f32 0x00000000#32) = _
  rw [Ideal.ofBits_zero_f32]
  rfl

/-- The number of rows of side 0 that have a pair. -/
theorem count0 (x1 : (⟨S512x512, .i32⟩ : BufTy).Contents (Elt Ideal)) (i : S_.Idx) :
    val_main_v32 (F := Ideal) x1 i = ∑ n, Cert.Spec.valid x1 0 n := by
  rw [val_main_v32_apply]
  unfold val_main_v31
  refine (count_reduce reducesTo_S512_S_d0 h_S_ (val_main_v25 (F := Ideal) x1) _ (fun _ => rfl) i).trans ?_
  refine Finset.sum_congr rfl fun n _ => ?_
  rw [bit0_at]
  rfl

/-! ## Side 1: the transposes -/

/-- The positive mask of side 1 at `(n, k)`: the transposed labels read the matrix at `(k, n)`. -/
theorem pos1_at (x1 : (⟨S512x512, .i32⟩ : BufTy).Contents (Elt Ideal)) (n k : Fin 512) :
    val_main_v37 (F := Ideal) x1 (ix2 n k) = pRow x1 1 n k := by
  have e : idx_main_v34 (ix2 n k) = ix2 k n :=
    funext fun a => by match a with | ⟨0, _⟩ => rfl | ⟨1, _⟩ => rfl
  rw [val_main_v37_apply, val_main_v36_apply, val_main_v34_apply, val_main_v35_apply, e]
  rfl

/-- The negative mask of side 1 at `(n, k)`. -/
theorem neg1_at (x1 : (⟨S512x512, .i32⟩ : BufTy).Contents (Elt Ideal)) (n k : Fin 512) :
    val_main_v40 (F := Ideal) x1 (ix2 n k) = qRow x1 1 n k := by
  have e : idx_main_v34 (ix2 n k) = ix2 k n :=
    funext fun a => by match a with | ⟨0, _⟩ => rfl | ⟨1, _⟩ => rfl
  rw [val_main_v40_apply, val_main_v39_apply, val_main_v34_apply, val_main_v38_apply, e]
  rfl

/-- The hinge of side 1 at `(n, i, j)`. -/
theorem hinge1_at (x0 : (⟨S512x512, .f32⟩ : BufTy).Contents (Elt Ideal)) (n i j : Fin 512) :
    val_main_v48 (F := Ideal) x0 (ix3 n i j) = max (margin + sRow x0 1 n j - sRow x0 1 n i) 0 := by
  have e1 : idx_main_v33 (idx_main_v41 (idx_main_v45 (ix3 n i j))) = ix2 j n :=
    funext fun a => by match a with | ⟨0, _⟩ => rfl | ⟨1, _⟩ => rfl
  have e2 : idx_main_v33 (idx_main_v44 (idx_main_v46 (ix3 n i j))) = ix2 i n :=
    funext fun a => by match a with | ⟨0, _⟩ => rfl | ⟨1, _⟩ => rfl
  rw [val_main_v48_apply, val_main_v47_apply, val_main_v45_apply, val_main_v43_apply, val_main_v42_apply,
    val_main_v41_apply, val_main_v33_apply, val_main_v46_apply, val_main_v44_apply, val_main_v33_apply,
    val_main_call3_v0_apply, e1, e2]
  show max (margin + x0 (ix2 j n) - x0 (ix2 i n)) (Ideal.ofBits .f32 0x00000000#32) = _
  rw [Ideal.ofBits_zero_f32]
  rfl

/-- The pair weight of side 1 at `(n, i, j)`. -/
theorem weight1_at (x1 : (⟨S512x512, .i32⟩ : BufTy).Contents (Elt Ideal)) (n i j : Fin 512) :
    val_main_v53 (F := Ideal) x1 (ix3 n i j) = pRow x1 1 n i * qRow x1 1 n j := by
  have e1 : idx_main_v49 (idx_main_v51 (ix3 n i j)) = ix2 n i :=
    funext fun a => by match a with | ⟨0, _⟩ => rfl | ⟨1, _⟩ => rfl
  have e2 : idx_main_v50 (idx_main_v52 (ix3 n i j)) = ix2 n j :=
    funext fun a => by match a with | ⟨0, _⟩ => rfl | ⟨1, _⟩ => rfl
  rw [val_main_v53_apply, val_main_v51_apply, val_main_v49_apply, val_main_v52_apply, val_main_v50_apply, e1, e2,
    pos1_at, neg1_at]
  rfl

/-- The total of row `n` of side 1. -/
theorem tot1_at (x0 : (⟨S512x512, .f32⟩ : BufTy).Contents (Elt Ideal)) (x1 : (⟨S512x512, .i32⟩ : BufTy).Contents (Elt Ideal))
    (n : Fin 512) :
    val_main_v55 (F := Ideal) x0 x1 (ix1 n) = rowTot (sRow x0 1 n) (pRow x1 1 n) (qRow x1 1 n) := by
  unfold val_main_v55
  simp only [Host.reduceAdd, Ideal.hostReduceAdd_def]
  refine (hostReduceAdd_slab _ _ _ n).trans ?_
  rw [← total_regroup _ _ _ (pRow_zero_or_one x1 1 n)]
  show Ideal.ofBits .f32 0x00000000#32 + _ = _
  rw [Ideal.ofBits_zero_f32, zero_add]
  refine Finset.sum_congr rfl fun i _ => Finset.sum_congr rfl fun j _ => ?_
  rw [val_main_v54_apply, hinge1_at, weight1_at]
  rfl

/-- The pair count of row `n` of side 1. -/
theorem cnt1_at (x1 : (⟨S512x512, .i32⟩ : BufTy).Contents (Elt Ideal)) (n : Fin 512) :
    val_main_v58 (F := Ideal) x1 (ix1 n) = rowCnt (pRow x1 1 n) (qRow x1 1 n) := by
  have e1 : ∀ k : Fin 512, idx_main_v56 (ix1 n) k = ix2 n k := fun k =>
    funext fun a => by match a with | ⟨0, _⟩ => rfl | ⟨1, _⟩ => rfl
  have e2 : ∀ k : Fin 512, idx_main_v57 (ix1 n) k = ix2 n k := fun k =>
    funext fun a => by match a with | ⟨0, _⟩ => rfl | ⟨1, _⟩ => rfl
  rw [val_main_v58_apply, val_main_v56_apply, val_main_v57_apply]
  simp only [e1, e2, pos1_at, neg1_at]
  show (Ideal.ofBits .f32 0x00000000#32 + ∑ k, pRow x1 1 n k) * (Ideal.ofBits .f32 0x00000000#32 + ∑ k, qRow x1 1 n k) = _
  rw [Ideal.ofBits_zero_f32, zero_add, zero_add]
  rfl

/-- Whether row `n` of side 1 has a pair. -/
theorem bit1_at (x1 : (⟨S512x512, .i32⟩ : BufTy).Contents (Elt Ideal)) (n : Fin 512) :
    val_main_v60 (F := Ideal) x1 (ix1 n) = positive (rowCnt (pRow x1 1 n) (qRow x1 1 n)) := by
  rw [val_main_v60_apply, val_main_v59_apply, cnt1_at]
  show Ideal.cmp .ogt _ (Ideal.ofBits .f32 0x00000000#32) = _
  rw [Ideal.ofBits_zero_f32]
  rfl

/-- The mean of row `n` of side 1. -/
theorem mean1 (x0 : (⟨S512x512, .f32⟩ : BufTy).Contents (Elt Ideal)) (x1 : (⟨S512x512, .i32⟩ : BufTy).Contents (Elt Ideal))
    (n : Fin 512) : val_main_v63 (F := Ideal) x0 x1 (ix1 n) = Cert.Spec.mean x0 x1 1 n := by
  rw [val_main_v63_apply, val_main_v62_apply, val_main_v61_apply, val_main_call5_v1_apply, val_main_call4_v1_apply,
    bit1_at, tot1_at, cnt1_at]
  show Scalar.select _ (Ideal.div _ (Scalar.select _ _ one)) (Ideal.ofBits .f32 0x00000000#32) = _
  rw [Ideal.ofBits_zero_f32]
  rfl

/-- The number of rows of side 1 that have a pair. -/
theorem count1 (x1 : (⟨S512x512, .i32⟩ : BufTy).Contents (Elt Ideal)) (i : S_.Idx) :
    val_main_v67 (F := Ideal) x1 i = ∑ n, Cert.Spec.valid x1 1 n := by
  rw [val_main_v67_apply]
  unfold val_main_v66
  refine (count_reduce reducesTo_S512_S_d0 h_S_ (val_main_v60 (F := Ideal) x1) _ (fun _ => rfl) i).trans ?_
  refine Finset.sum_congr rfl fun n _ => ?_
  rw [bit1_at]
  rfl

/-! ## The result -/

/-- THE REFERENCE'S VALUE: the sum of both sides' row means over the number of both sides' valid rows. -/
theorem reference_is_loss (x0 : (⟨Cert.ReferenceIdeal.S512x512, .f32⟩ : BufTy).Contents (Elt Ideal))
    (x1 : (⟨Cert.ReferenceIdeal.S512x512, .i32⟩ : BufTy).Contents (Elt Ideal)) (i : Cert.ReferenceIdeal.S_.Idx) :
    Cert.ReferenceIdeal.ReadP.val_main_v70 (F := Ideal) x0 x1 i = Cert.Spec.loss x0 x1 := by
  rw [val_main_v70_apply, val_main_v68_apply, val_main_v69_apply, val_main_v29_apply, val_main_v64_apply, count0, count1,
    sum_idx1, sum_idx1]
  simp only [mean0, mean1]
  show Ideal.div ((Ideal.ofBits .f32 0x00000000#32 + ∑ n, Cert.Spec.mean x0 x1 0 n)
    + (Ideal.ofBits .f32 0x00000000#32 + ∑ n, Cert.Spec.mean x0 x1 1 n)) _ = _
  rw [Ideal.ofBits_zero_f32, zero_add, zero_add]
  rfl

end Cert.ReferenceValue

end
-- ==== Proof.lean ====
/-
  The kernel and its reference compute one loss of a 512 × 512 matrix of scores and a matrix of integer labels.

  THE LOSS. A label 1 marks a positive entry, a label 0 a negative one. Look at the matrix row by row (side 0) and at its
  transpose row by row (side 1). For a row with scores s, positive mask p and negative mask q, the row's total is
  ∑ over pairs (i, j) of max (s j + 0.2 − s i) 0 · p i · q j, its pair count is (∑ p)(∑ q), its mean is total / count where
  the count is positive and 0 elsewhere, and it is valid where the count is positive. The loss is the sum of all 1024 row
  means divided by the number of valid rows (Spec.loss over RowMath).

  THE KERNEL stacks each of the scores and the two masks with its transpose (HostValue), and at each of 2 × 32 grid points
  takes 16 rows of one side: it sums the hinge against q over j first (a batched matrix-vector product), multiplies by p
  and sums over i, and writes the 16 means and validity values back (BodyValue for one block, ArrayValue for the two
  result arrays); afterwards it sums the two result arrays and divides (TailValue). THE REFERENCE, one side after the
  other, multiplies each hinge by p i · q j and sums over both axes at once, counts the valid rows as 32-bit integers,
  and adds the two sides' sums before dividing (ReferenceValue).

  WHY THEY AGREE on the extended reals, for all inputs: 0.2 + s j and s j + 0.2 are the same; a mask entry is 0 or 1, so
  multiplying the inner sum by p i distributes over it (times 0 both sides vanish, times 1 nothing changes) —
  infinities or not; sums may be regrouped freely; 0 + x = x; at most 512 ones counted in 32-bit words never wrap. The
  idealization rewrote no operation, so it preserves the kernel trivially.
-/
import proofs.«167897_j86543591015116_2_alg».proof.Defs
import proofs.«167897_j86543591015116_2_alg».proof.Proof.Gen.Kernel
import proofs.«167897_j86543591015116_2_alg».proof.Proof.Gen.Kernel.Skeleton
import proofs.«167897_j86543591015116_2_alg».proof.Proof.Gen.Kernel.Launch
import proofs.«167897_j86543591015116_2_alg».proof.Proof.Gen.Kernel.Points
import proofs.«167897_j86543591015116_2_alg».proof.Proof.Gen.Kernel.Frame
import proofs.«167897_j86543591015116_2_alg».proof.Proof.Gen.KernelIdeal
import proofs.«167897_j86543591015116_2_alg».proof.Proof.Gen.KernelIdeal.Skeleton
import proofs.«167897_j86543591015116_2_alg».proof.Proof.Gen.KernelIdeal.Launch
import proofs.«167897_j86543591015116_2_alg».proof.Proof.Gen.KernelIdeal.Points
import proofs.«167897_j86543591015116_2_alg».proof.Proof.Gen.KernelIdeal.Frame
import proofs.«167897_j86543591015116_2_alg».proof.Proof.Gen.ReferenceIdeal
import proofs.«167897_j86543591015116_2_alg».proof.Proof.ReferenceRunPatched
import proofs.«167897_j86543591015116_2_alg».proof.Proof.ReferenceReadPatched
import proofs.«167897_j86543591015116_2_alg».proof.Proof.Gen.Pre_finite_inputs
import proofs.«167897_j86543591015116_2_alg».proof.Proof.KernelTail
import proofs.«167897_j86543591015116_2_alg».proof.Proof.BodyValue
import proofs.«167897_j86543591015116_2_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories that agree on the arguments, both programs end with the loss of the arguments in their result buffer. -/
theorem algebraic : Cert.algebraic_KernelIdeal_ReferenceIdeal := by
  intro m ρ m' ρ' _ hagree
  refine ⟨fun c _ => Cert.Spec.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.TailValue.run m Cert.KernelIdeal.BodyValue.mean_block Cert.KernelIdeal.BodyValue.valid_block ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v70_eq, (hagree c).1, (hagree c).2]
  funext i
  exact Cert.ReferenceValue.reference_is_loss _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
